-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_k0" .f32 0x3BC41550#32 ((131072 / 21903795 : ℝ) : EReal)
  ∧ IdealRules.named_const.Statement Cert.KernelIdeal.κ "inv_k0" .f32 0x3BC41550#32 ((131072 / 21903795 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S262144 : Shape := ⟨1, ![262144]⟩
abbrev S8388608 : Shape := ⟨1, ![8388608]⟩
abbrev S8388608x2 : Shape := ⟨2, ![8388608, 2]⟩
abbrev S16384 : Shape := ⟨1, ![16384]⟩
abbrev S524288 : Shape := ⟨1, ![524288]⟩
abbrev S524288x2 : Shape := ⟨2, ![524288, 2]⟩
abbrev S_ : Shape := ⟨0, ![]⟩
abbrev S8388608x1 : Shape := ⟨2, ![8388608, 1]⟩
abbrev S524288x1 : Shape := ⟨2, ![524288, 1]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S262144 : S_.BroadcastsInDim S262144 (![] : Fin 0 → Fin S262144.rank)
  reducesTo_S262144_S_d0 : S262144.ReducesTo [0] S_
  bcast_S_S8388608 : S_.BroadcastsInDim S8388608 (![] : Fin 0 → Fin S8388608.rank)
  reducesTo_S8388608_S_d0 : S8388608.ReducesTo [0] S_
  bcast_S_S8388608x2 : S_.BroadcastsInDim S8388608x2 (![] : Fin 0 → Fin S8388608x2.rank)
  reducesTo_S8388608x2_S_d0_1 : S8388608x2.ReducesTo [0, 1] S_
  bcast_S_S16384 : S_.BroadcastsInDim S16384 (![] : Fin 0 → Fin S16384.rank)
  reducesTo_S16384_S_d0 : S16384.ReducesTo [0] S_
  bcast_S_S524288 : S_.BroadcastsInDim S524288 (![] : Fin 0 → Fin S524288.rank)
  reducesTo_S524288_S_d0 : S524288.ReducesTo [0] S_
  bcast_S_S524288x2 : S_.BroadcastsInDim S524288x2 (![] : Fin 0 → Fin S524288x2.rank)
  reducesTo_S524288x2_S_d0_1 : S524288x2.ReducesTo [0, 1] S_
  bcast_S8388608_S8388608x1_0 : S8388608.BroadcastsInDim S8388608x1 (![0] : Fin 1 → Fin S8388608x1.rank)
  bcast_S524288_S524288x1_0 : S524288.BroadcastsInDim S524288x1 (![0] : Fin 1 → Fin S524288x1.rank)
  gather_S262144_S8388608x1_S8388608_n_0_n_n_0_1_1_wf : GatherDims.WF S262144 S8388608x1 S8388608 [] [0] [] [0] [] 1 ![1]
  gather_S262144_S524288x1_S524288_n_0_n_n_0_1_1_wf : GatherDims.WF S262144 S524288x1 S524288 [] [0] [] [0] [] 1 ![1]
  gather_S16384_S524288x1_S524288_n_0_n_n_0_1_1_wf : GatherDims.WF S16384 S524288x1 S524288 [] [0] [] [0] [] 1 ![1]

variable [Facts]

def gather_S262144_S8388608x1_S8388608_n_0_n_n_0_1_1 : GatherDims S262144 S8388608x1 S8388608 where
  offsetDims := []
  collapsedSliceDims := [0]
  operandBatchingDims := []
  startIndicesBatchingDims := []
  startIndexMap := [0]
  indexVectorDim := 1
  sliceSizes := ![1]
  wf := gather_S262144_S8388608x1_S8388608_n_0_n_n_0_1_1_wf
def gather_S262144_S524288x1_S524288_n_0_n_n_0_1_1 : GatherDims S262144 S524288x1 S524288 where
  offsetDims := []
  collapsedSliceDims := [0]
  operandBatchingDims := []
  startIndicesBatchingDims := []
  startIndexMap := [0]
  indexVectorDim := 1
  sliceSizes := ![1]
  wf := gather_S262144_S524288x1_S524288_n_0_n_n_0_1_1_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def fn_part4 {F : FTy → Type} [FloatOps F] (main_arg6 : FVec F S16384 .f32) (main_arg11 : IVec S524288 32) (main_v62 : IVec S_ 1) (main_v69 : FVec F S524288 .f32) : IVec S_ 1 :=
  let main_c_24 : IVec S_ 32 := constantI S_ 32 0#32
  let main_v70 : IVec S524288 32 := broadcastInDim S524288 ![] bcast_S_S524288 main_c_24
  let main_v71 : IVec S524288 1 := cmpi .slt main_arg11 main_v70
  let main_c_25 : IVec S_ 32 := constantI S_ 32 16384#32
  let main_v72 : IVec S524288 32 := broadcastInDim S524288 ![] bcast_S_S524288 main_c_25
  let main_v73 : IVec S524288 32 := addi main_arg11 main_v72
  let main_v74 : IVec S524288 32 := select main_v71 main_v73 main_arg11
  let main_v75 : IVec S524288x1 32 := broadcastInDim S524288x1 ![0] bcast_S524288_S524288x1_0 main_v74
  let main_v76 : FVec F S524288 .f32 := (fun x i => Host.gather gather_S16384_S524288x1_S524288_n_0_n_n_0_1_1 x i) main_arg6 main_v75
  let main_v77 : FVec F S524288 .f32 := addf main_v69 main_v76
  let main_cst_26 : FVec F S_ .f32 := constant S_ .f32 0x00000000#32
  let main_v78 : FVec F S524288 .f32 := broadcastInDim S524288 ![] bcast_S_S524288 main_cst_26
  let main_v79 : IVec S524288 1 := cmpf .une main_v77 main_v78
  let main_c_27 : IVec S_ 1 := constantI S_ 1 1#1
  let main_v80 : IVec S_ 1 := (fun x v => Host.reduce IntOp.andi x v reducesTo_S524288_S_d0 h_S_) main_v79 main_c_27
  let main_v81 : IVec S_ 1 := andi main_v62 main_v80
  main_v81

def fn_part3 {F : FTy → Type} [FloatOps F] (main_arg2 : FVec F S262144 .f32) (main_arg6 : FVec F S16384 .f32) (main_arg10 : IVec S8388608 32) (main_arg11 : IVec S524288 32) (main_arg12 : IVec S524288 32) (main_v43 : IVec S_ 1) (main_v50 : FVec F S8388608 .f32) (main_c_18 : IVec S_ 32) : IVec S_ 1 :=
  let main_v51 : IVec S8388608 32 := broadcastInDim S8388608 ![] bcast_S_S8388608 main_c_18
  let main_v52 : IVec S8388608 1 := cmpi .slt main_arg10 main_v51
  let main_c_19 : IVec S_ 32 := constantI S_ 32 262144#32
  let main_v53 : IVec S8388608 32 := broadcastInDim S8388608 ![] bcast_S_S8388608 main_c_19
  let main_v54 : IVec S8388608 32 := addi main_arg10 main_v53
  let main_v55 : IVec S8388608 32 := select main_v52 main_v54 main_arg10
  let main_v56 : IVec S8388608x1 32 := broadcastInDim S8388608x1 ![0] bcast_S8388608_S8388608x1_0 main_v55
  let main_v57 : FVec F S8388608 .f32 := (fun x i => Host.gather gather_S262144_S8388608x1_S8388608_n_0_n_n_0_1_1 x i) main_arg2 main_v56
  let main_v58 : FVec F S8388608 .f32 := addf main_v50 main_v57
  let main_cst_20 : FVec F S_ .f32 := constant S_ .f32 0x00000000#32
  let main_v59 : FVec F S8388608 .f32 := broadcastInDim S8388608 ![] bcast_S_S8388608 main_cst_20
  let main_v60 : IVec S8388608 1 := cmpf .une main_v58 main_v59
  let main_c_21 : IVec S_ 1 := constantI S_ 1 1#1
  let main_v61 : IVec S_ 1 := (fun x v => Host.reduce IntOp.andi x v reducesTo_S8388608_S_d0 h_S_) main_v60 main_c_21
  let main_v62 : IVec S_ 1 := andi main_v43 main_v61
  let main_c_22 : IVec S_ 32 := constantI S_ 32 0#32
  let main_v63 : IVec S524288 32 := broadcastInDim S524288 ![] bcast_S_S524288 main_c_22
  let main_v64 : IVec S524288 1 := cmpi .slt main_arg12 main_v63
  let main_c_23 : IVec S_ 32 := constantI S_ 32 262144#32
  let main_v65 : IVec S524288 32 := broadcastInDim S524288 ![] bcast_S_S524288 main_c_23
  let main_v66 : IVec S524288 32 := addi main_arg12 main_v65
  let main_v67 : IVec S524288 32 := select main_v64 main_v66 main_arg12
  let main_v68 : IVec S524288x1 32 := broadcastInDim S524288x1 ![0] bcast_S524288_S524288x1_0 main_v67
  let main_v69 : FVec F S524288 .f32 := (fun x i => Host.gather gather_S262144_S524288x1_S524288_n_0_n_n_0_1_1 x i) main_arg2 main_v68
  fn_part4 (F := F) main_arg6 main_arg11 main_v62 main_v69

def fn_part2 {F : FTy → Type} [FloatOps F] (main_arg2 : FVec F S262144 .f32) (main_arg6 : FVec F S16384 .f32) (main_arg7 : FVec F S524288 .f32) (main_arg8 : FVec F S524288x2 .f32) (main_arg9 : IVec S8388608 32) (main_arg10 : IVec S8388608 32) (main_arg11 : IVec S524288 32) (main_arg12 : IVec S524288 32) (main_v33 : IVec S_ 1) : IVec S_ 1 :=
  let main_v34 : FVec F S524288 .f32 := Host.absf main_arg7
  let main_cst_12 : FVec F S_ .f32 := constant S_ .f32 0x7F800000#32
  let main_v35 : FVec F S524288 .f32 := broadcastInDim S524288 ![] bcast_S_S524288 main_cst_12
  let main_v36 : IVec S524288 1 := cmpf .olt main_v34 main_v35
  let main_c_13 : IVec S_ 1 := constantI S_ 1 1#1
  let main_v37 : IVec S_ 1 := (fun x v => Host.reduce IntOp.andi x v reducesTo_S524288_S_d0 h_S_) main_v36 main_c_13
  let main_v38 : IVec S_ 1 := andi main_v33 main_v37
  let main_v39 : FVec F S524288x2 .f32 := Host.absf main_arg8
  let main_cst_14 : FVec F S_ .f32 := constant S_ .f32 0x7F800000#32
  let main_v40 : FVec F S524288x2 .f32 := broadcastInDim S524288x2 ![] bcast_S_S524288x2 main_cst_14
  let main_v41 : IVec S524288x2 1 := cmpf .olt main_v39 main_v40
  let main_c_15 : IVec S_ 1 := constantI S_ 1 1#1
  let main_v42 : IVec S_ 1 := (fun x v => Host.reduce IntOp.andi x v reducesTo_S524288x2_S_d0_1 h_S_) main_v41 main_c_15
  let main_v43 : IVec S_ 1 := andi main_v38 main_v42
  let main_c_16 : IVec S_ 32 := constantI S_ 32 0#32
  let main_v44 : IVec S8388608 32 := broadcastInDim S8388608 ![] bcast_S_S8388608 main_c_16
  let main_v45 : IVec S8388608 1 := cmpi .slt main_arg9 main_v44
  let main_c_17 : IVec S_ 32 := constantI S_ 32 262144#32
  let main_v46 : IVec S8388608 32 := broadcastInDim S8388608 ![] bcast_S_S8388608 main_c_17
  let main_v47 : IVec S8388608 32 := addi main_arg9 main_v46
  let main_v48 : IVec S8388608 32 := select main_v45 main_v47 main_arg9
  let main_v49 : IVec S8388608x1 32 := broadcastInDim S8388608x1 ![0] bcast_S8388608_S8388608x1_0 main_v48
  let main_v50 : FVec F S8388608 .f32 := (fun x i => Host.gather gather_S262144_S8388608x1_S8388608_n_0_n_n_0_1_1 x i) main_arg2 main_v49
  let main_c_18 : IVec S_ 32 := constantI S_ 32 0#32
  fn_part3 (F := F) main_arg2 main_arg6 main_arg10 main_arg11 main_arg12 main_v43 main_v50 main_c_18

def fn_part1 {F : FTy → Type} [FloatOps F] (main_arg2 : FVec F S262144 .f32) (main_arg4 : FVec F S8388608x2 .f32) (main_arg5 : FVec F S16384 .f32) (main_arg6 : FVec F S16384 .f32) (main_arg7 : FVec F S524288 .f32) (main_arg8 : FVec F S524288x2 .f32) (main_arg9 : IVec S8388608 32) (main_arg10 : IVec S8388608 32) (main_arg11 : IVec S524288 32) (main_arg12 : IVec S524288 32) (main_v13 : IVec S_ 1) (main_v16 : IVec S8388608 1) : IVec S_ 1 :=
  let main_c_5 : IVec S_ 1 := constantI S_ 1 1#1
  let main_v17 : IVec S_ 1 := (fun x v => Host.reduce IntOp.andi x v reducesTo_S8388608_S_d0 h_S_) main_v16 main_c_5
  let main_v18 : IVec S_ 1 := andi main_v13 main_v17
  let main_v19 : FVec F S8388608x2 .f32 := Host.absf main_arg4
  let main_cst_6 : FVec F S_ .f32 := constant S_ .f32 0x7F800000#32
  let main_v20 : FVec F S8388608x2 .f32 := broadcastInDim S8388608x2 ![] bcast_S_S8388608x2 main_cst_6
  let main_v21 : IVec S8388608x2 1 := cmpf .olt main_v19 main_v20
  let main_c_7 : IVec S_ 1 := constantI S_ 1 1#1
  let main_v22 : IVec S_ 1 := (fun x v => Host.reduce IntOp.andi x v reducesTo_S8388608x2_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_v29 : FVec F S16384 .f32 := Host.absf main_arg6
  let main_cst_10 : FVec F S_ .f32 := constant S_ .f32 0x7F800000#32
  let main_v30 : FVec F S16384 .f32 := broadcastInDim S16384 ![] bcast_S_S16384 main_cst_10
  let main_v31 : IVec S16384 1 := cmpf .olt main_v29 main_v30
  let main_c_11 : IVec S_ 1 := constantI S_ 1 1#1
  let main_v32 : IVec S_ 1 := (fun x v => Host.reduce IntOp.andi x v reducesTo_S16384_S_d0 h_S_) main_v31 main_c_11
  let main_v33 : IVec S_ 1 := andi main_v28 main_v32
  fn_part2 (F := F) main_arg2 main_arg6 main_arg7 main_arg8 main_arg9 main_arg10 main_arg11 main_arg12 main_v33

def fn {F : FTy → Type} [FloatOps F] (main_arg0 : FVec F S262144x2 .f32) (main_arg1 : FVec F S262144 .f32) (main_arg2 : FVec F S262144 .f32) (main_arg3 : FVec F S8388608 .f32) (main_arg4 : FVec F S8388608x2 .f32) (main_arg5 : FVec F S16384 .f32) (main_arg6 : FVec F S16384 .f32) (main_arg7 : FVec F S524288 .f32) (main_arg8 : FVec F S524288x2 .f32) (main_arg9 : IVec S8388608 32) (main_arg10 : IVec S8388608 32) (main_arg11 : IVec S524288 32) (main_arg12 : IVec S524288 32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S8388608 .f32 := Host.absf main_arg3
  let main_cst_4 : FVec F S_ .f32 := constant S_ .f32 0x7F800000#32
  let main_v15 : FVec F S8388608 .f32 := broadcastInDim S8388608 ![] bcast_S_S8388608 main_cst_4
  let main_v16 : IVec S8388608 1 := cmpf .olt main_v14 main_v15
  fn_part1 (F := F) main_arg2 main_arg4 main_arg5 main_arg6 main_arg7 main_arg8 main_arg9 main_arg10 main_arg11 main_arg12 main_v13 main_v16
-- ==== Kernel.lean ====
abbrev S262144x2 : Shape := ⟨2, ![262144, 2]⟩
abbrev S262144 : Shape := ⟨1, ![262144]⟩
abbrev S8388608 : Shape := ⟨1, ![8388608]⟩
abbrev S8388608x2 : Shape := ⟨2, ![8388608, 2]⟩
abbrev S16384 : Shape := ⟨1, ![16384]⟩
abbrev S524288 : Shape := ⟨1, ![524288]⟩
abbrev S524288x2 : Shape := ⟨2, ![524288, 2]⟩
abbrev S_ : Shape := ⟨0, ![]⟩
abbrev S8388608x1 : Shape := ⟨2, ![8388608, 1]⟩
abbrev S2x8388608 : Shape := ⟨2, ![2, 8388608]⟩
abbrev S131072 : Shape := ⟨1, ![131072]⟩
abbrev S2x131072 : Shape := ⟨2, ![2, 131072]⟩
abbrev S1x131072 : Shape := ⟨2, ![1, 131072]⟩
abbrev S524288x1 : Shape := ⟨2, ![524288, 1]⟩
abbrev S2x524288 : Shape := ⟨2, ![2, 524288]⟩

abbrev nBuf : Space → Nat
  | .hbm => 97
  | .vmem => 24
  | .smem => 0
  | _ => 0

abbrev bufTy : (tb : Table) → Fin (tcTables nBuf tb) → BufTy
  | .hbm, ⟨0, _⟩ => ⟨S262144x2, .f32⟩
  | .hbm, ⟨1, _⟩ => ⟨S262144, .f32⟩
  | .hbm, ⟨2, _⟩ => ⟨S262144, .f32⟩
  | .hbm, ⟨3, _⟩ => ⟨S8388608, .f32⟩
  | .hbm, ⟨4, _⟩ => ⟨S8388608x2, .f32⟩
  | .hbm, ⟨5, _⟩ => ⟨S16384, .f32⟩
  | .hbm, ⟨6, _⟩ => ⟨S16384, .f32⟩
  | .hbm, ⟨7, _⟩ => ⟨S524288, .f32⟩
  | .hbm, ⟨8, _⟩ => ⟨S524288x2, .f32⟩
  | .hbm, ⟨9, _⟩ => ⟨S8388608, .i32⟩
  | .hbm, ⟨10, _⟩ => ⟨S8388608, .i32⟩
  | .hbm, ⟨11, _⟩ => ⟨S524288, .i32⟩
  | .hbm, ⟨12, _⟩ => ⟨S524288, .i32⟩
  | .hbm, ⟨13, _⟩ => ⟨S262144x2, .f32⟩
  | .hbm, ⟨14, _⟩ => ⟨S_, .f32⟩
  | .hbm, ⟨15, _⟩ => ⟨S262144, .f32⟩
  | .hbm, ⟨16, _⟩ => ⟨S262144, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i32⟩
  | .hbm, ⟨22, _⟩ => ⟨S8388608, .i32⟩
  | .hbm, ⟨23, _⟩ => ⟨S8388608, .i1⟩
  | .hbm, ⟨24, _⟩ => ⟨S_, .i32⟩
  | .hbm, ⟨25, _⟩ => ⟨S8388608, .i32⟩
  | .hbm, ⟨26, _⟩ => ⟨S8388608, .i32⟩
  | .hbm, ⟨27, _⟩ => ⟨S8388608, .i32⟩
  | .hbm, ⟨28, _⟩ => ⟨S8388608x1, .i32⟩
  | .hbm, ⟨29, _⟩ => ⟨S8388608, .f32⟩
  | .hbm, ⟨30, _⟩ => ⟨S_, .i32⟩
  | .hbm, ⟨31, _⟩ => ⟨S8388608, .i32⟩
  | .hbm, ⟨32, _⟩ => ⟨S8388608, .i1⟩
  | .hbm, ⟨33, _⟩ => ⟨S_, .i32⟩
  | .hbm, ⟨34, _⟩ => ⟨S8388608, .i32⟩
  | .hbm, ⟨35, _⟩ => ⟨S8388608, .i32⟩
  | .hbm, ⟨36, _⟩ => ⟨S8388608, .i32⟩
  | .hbm, ⟨37, _⟩ => ⟨S8388608x1, .i32⟩
  | .hbm, ⟨38, _⟩ => ⟨S8388608, .f32⟩
  | .hbm, ⟨39, _⟩ => ⟨S_, .i32⟩
  | .hbm, ⟨40, _⟩ => ⟨S8388608, .i32⟩
  | .hbm, ⟨41, _⟩ => ⟨S8388608, .i1⟩
  | .hbm, ⟨42, _⟩ => ⟨S_, .i32⟩
  | .hbm, ⟨43, _⟩ => ⟨S8388608, .i32⟩
  | .hbm, ⟨44, _⟩ => ⟨S8388608, .i32⟩
  | .hbm, ⟨45, _⟩ => ⟨S8388608, .i32⟩
  | .hbm, ⟨46, _⟩ => ⟨S8388608x1, .i32⟩
  | .hbm, ⟨47, _⟩ => ⟨S8388608, .f32⟩
  | .hbm, ⟨48, _⟩ => ⟨S2x8388608, .f32⟩
  | .hbm, ⟨49, _⟩ => ⟨S2x8388608, .f32⟩
  | .hbm, ⟨50, _⟩ => ⟨S8388608x2, .f32⟩
  | .hbm, ⟨51, _⟩ => ⟨S_, .f32⟩
  | .hbm, ⟨52, _⟩ => ⟨S262144x2, .f32⟩
  | .hbm, ⟨53, _⟩ => ⟨S8388608x1, .i32⟩
  | .hbm, ⟨54, _⟩ => ⟨S262144x2, .f32⟩
  | .hbm, ⟨55, _⟩ => ⟨S_, .i32⟩
  | .hbm, ⟨56, _⟩ => ⟨S524288, .i32⟩
  | .hbm, ⟨57, _⟩ => ⟨S524288, .i1⟩
  | .hbm, ⟨58, _⟩ => ⟨S_, .i32⟩
  | .hbm, ⟨59, _⟩ => ⟨S524288, .i32⟩
  | .hbm, ⟨60, _⟩ => ⟨S524288, .i32⟩
  | .hbm, ⟨61, _⟩ => ⟨S524288, .i32⟩
  | .hbm, ⟨62, _⟩ => ⟨S524288x1, .i32⟩
  | .hbm, ⟨63, _⟩ => ⟨S524288, .f32⟩
  | .hbm, ⟨64, _⟩ => ⟨S_, .i32⟩
  | .hbm, ⟨65, _⟩ => ⟨S524288, .i32⟩
  | .hbm, ⟨66, _⟩ => ⟨S524288, .i1⟩
  | .hbm, ⟨67, _⟩ => ⟨S_, .i32⟩
  | .hbm, ⟨68, _⟩ => ⟨S524288, .i32⟩
  | .hbm, ⟨69, _⟩ => ⟨S524288, .i32⟩
  | .hbm, ⟨70, _⟩ => ⟨S524288, .i32⟩
  | .hbm, ⟨71, _⟩ => ⟨S524288x1, .i32⟩
  | .hbm, ⟨72, _⟩ => ⟨S524288, .f32⟩
  | .hbm, ⟨73, _⟩ => ⟨S_, .i32⟩
  | .hbm, ⟨74, _⟩ => ⟨S524288, .i32⟩
  | .hbm, ⟨75, _⟩ => ⟨S524288, .i1⟩
  | .hbm, ⟨76, _⟩ => ⟨S_, .i32⟩
  | .hbm, ⟨77, _⟩ => ⟨S524288, .i32⟩
  | .hbm, ⟨78, _⟩ => ⟨S524288, .i32⟩
  | .hbm, ⟨79, _⟩ => ⟨S524288, .i32⟩
  | .hbm, ⟨80, _⟩ => ⟨S524288x1, .i32⟩
  | .hbm, ⟨81, _⟩ => ⟨S524288, .f32⟩
  | .hbm, ⟨82, _⟩ => ⟨S524288x2, .f32⟩
  | .hbm, ⟨83, _⟩ => ⟨S2x524288, .f32⟩
  | .hbm, ⟨84, _⟩ => ⟨S2x524288, .f32⟩
  | .hbm, ⟨85, _⟩ => ⟨S524288x2, .f32⟩
  | .hbm, ⟨86, _⟩ => ⟨S_, .f32⟩
  | .hbm, ⟨87, _⟩ => ⟨S262144x2, .f32⟩
  | .hbm, ⟨88, _⟩ => ⟨S524288x1, .i32⟩
  | .hbm, ⟨89, _⟩ => ⟨S262144x2, .f32⟩
  | .hbm, ⟨90, _⟩ => ⟨S262144x2, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S262144x2, .f32⟩
  | .hbm, ⟨96, _⟩ => ⟨S262144x2, .f32⟩
  | .local _ .vmem, ⟨0, _⟩ => ⟨S131072, .f32⟩
  | .local _ .vmem, ⟨1, _⟩ => ⟨S131072, .f32⟩
  | .local _ .vmem, ⟨2, _⟩ => ⟨S2x131072, .f32⟩
  | .local _ .vmem, ⟨3, _⟩ => ⟨S2x131072, .f32⟩
  | .local _ .vmem, ⟨4, _⟩ => ⟨S131072, .f32⟩
  | .local _ .vmem, ⟨5, _⟩ => ⟨S131072, .f32⟩
  | .local _ .vmem, ⟨6, _⟩ => ⟨S131072, .f32⟩
  | .local _ .vmem, ⟨7, _⟩ => ⟨S131072, .f32⟩
  | .local _ .vmem, ⟨8, _⟩ => ⟨S131072, .f32⟩
  | .local _ .vmem, ⟨9, _⟩ => ⟨S131072, .f32⟩
  | .local _ .vmem, ⟨10, _⟩ => ⟨S2x131072, .f32⟩
  | .local _ .vmem, ⟨11, _⟩ => ⟨S2x131072, .f32⟩
  | .local _ .vmem, ⟨12, _⟩ => ⟨S131072, .f32⟩
  | .local _ .vmem, ⟨13, _⟩ => ⟨S131072, .f32⟩
  | .local _ .vmem, ⟨14, _⟩ => ⟨S2x131072, .f32⟩
  | .local _ .vmem, ⟨15, _⟩ => ⟨S2x131072, .f32⟩
  | .local _ .vmem, ⟨16, _⟩ => ⟨S131072, .f32⟩
  | .local _ .vmem, ⟨17, _⟩ => ⟨S131072, .f32⟩
  | .local _ .vmem, ⟨18, _⟩ => ⟨S131072, .f32⟩
  | .local _ .vmem, ⟨19, _⟩ => ⟨S131072, .f32⟩
  | .local _ .vmem, ⟨20, _⟩ => ⟨S131072, .f32⟩
  | .local _ .vmem, ⟨21, _⟩ => ⟨S131072, .f32⟩
  | .local _ .vmem, ⟨22, _⟩ => ⟨S2x131072, .f32⟩
  | .local _ .vmem, ⟨23, _⟩ => ⟨S2x131072, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_c : Ref sig .tc := ⟨.hbm, 21, rfl⟩
abbrev main_v3 : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_c_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_c_12 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_13 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_14 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S131072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S131072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x131072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x131072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S131072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S131072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S131072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x131072 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  reducesTo_S262144x2_S262144_d1 : S262144x2.ReducesTo [1] S262144
  h_S_ : 0 < S_.numel
  reducesTo_S262144_S_d0 : S262144.ReducesTo [0] S_
  bcast_S_S8388608 : S_.BroadcastsInDim S8388608 (![] : Fin 0 → Fin S8388608.rank)
  bcast_S8388608_S8388608x1_0 : S8388608.BroadcastsInDim S8388608x1 (![0] : Fin 1 → Fin S8388608x1.rank)
  transposes_S8388608x2_S2x8388608_1_0 : S8388608x2.Transposes [1, 0] S2x8388608
  inb_S131072_S131072_0 : ∀ a, (![0] : Fin 1 → Nat) a + S131072.size a ≤ S131072.size a
  h_S131072 : 0 < S131072.numel
  inb_S2x131072_S2x131072_0_0 : ∀ a, (![0, 0] : Fin 2 → Nat) a + S2x131072.size a ≤ S2x131072.size a
  h_S2x131072 : 0 < S2x131072.numel
  shapeCasts_S2x131072_S2x131072 : S2x131072.ShapeCasts S2x131072
  shapeCasts_S131072_S131072 : S131072.ShapeCasts S131072
  shapeCasts_S131072_S1x131072 : S131072.ShapeCasts S1x131072
  broadcasts_S1x131072_S2x131072 : S1x131072.Broadcasts S2x131072
  transposes_S2x8388608_S8388608x2_1_0 : S2x8388608.Transposes [1, 0] S8388608x2
  bcast_S_S262144x2 : S_.BroadcastsInDim S262144x2 (![] : Fin 0 → Fin S262144x2.rank)
  bcast_S_S524288 : S_.BroadcastsInDim S524288 (![] : Fin 0 → Fin S524288.rank)
  bcast_S524288_S524288x1_0 : S524288.BroadcastsInDim S524288x1 (![0] : Fin 1 → Fin S524288x1.rank)
  transposes_S524288x2_S2x524288_1_0 : S524288x2.Transposes [1, 0] S2x524288
  transposes_S2x524288_S524288x2_1_0 : S2x524288.Transposes [1, 0] S524288x2
  gather_S262144_S8388608x1_S8388608_n_0_n_n_0_1_1_wf : GatherDims.WF S262144 S8388608x1 S8388608 [] [0] [] [0] [] 1 ![1]
  scatter_S262144x2_S8388608x1_S8388608x2_1_0_0_1_wf : ScatterDims.WF S262144x2 S8388608x1 S8388608x2 [1] [0] [0] 1
  gather_S262144_S524288x1_S524288_n_0_n_n_0_1_1_wf : GatherDims.WF S262144 S524288x1 S524288 [] [0] [] [0] [] 1 ![1]
  gather_S16384_S524288x1_S524288_n_0_n_n_0_1_1_wf : GatherDims.WF S16384 S524288x1 S524288 [] [0] [] [0] [] 1 ![1]
  scatter_S262144x2_S524288x1_S524288x2_1_0_0_1_wf : ScatterDims.WF S262144x2 S524288x1 S524288x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S131072.size a ≤ S8388608.size a
  hwx0_0 : ∀ i : grid0.Coords, EltTy.bits .f32 = 32 ∨ (Rect.block (s := S8388608) S131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x131072.size a ≤ S2x8388608.size a
  hwx0_1 : ∀ i : grid0.Coords, EltTy.bits .f32 = 32 ∨ (Rect.block (s := S2x8388608) S2x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S131072.size a ≤ S8388608.size a
  hwx0_2 : ∀ i : grid0.Coords, EltTy.bits .f32 = 32 ∨ (Rect.block (s := S8388608) S131072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S131072.size a ≤ S8388608.size a
  hwx0_3 : ∀ i : grid0.Coords, EltTy.bits .f32 = 32 ∨ (Rect.block (s := S8388608) S131072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S131072.size a ≤ S8388608.size a
  hwx0_4 : ∀ i : grid0.Coords, EltTy.bits .f32 = 32 ∨ (Rect.block (s := S8388608) S131072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x131072.size a ≤ S2x8388608.size a
  hwx0_5 : ∀ i : grid0.Coords, EltTy.bits .f32 = 32 ∨ (Rect.block (s := S2x8388608) S2x131072.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S131072.size a ≤ S524288.size a
  hwx1_0 : ∀ i : grid1.Coords, EltTy.bits .f32 = 32 ∨ (Rect.block (s := S524288) S131072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x131072.size a ≤ S2x524288.size a
  hwx1_1 : ∀ i : grid1.Coords, EltTy.bits .f32 = 32 ∨ (Rect.block (s := S2x524288) S2x131072.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S131072.size a ≤ S524288.size a
  hwx1_2 : ∀ i : grid1.Coords, EltTy.bits .f32 = 32 ∨ (Rect.block (s := S524288) S131072.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S131072.size a ≤ S524288.size a
  hwx1_3 : ∀ i : grid1.Coords, EltTy.bits .f32 = 32 ∨ (Rect.block (s := S524288) S131072.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S131072.size a ≤ S524288.size a
  hwx1_4 : ∀ i : grid1.Coords, EltTy.bits .f32 = 32 ∨ (Rect.block (s := S524288) S131072.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x131072.size a ≤ S2x524288.size a
  hwx1_5 : ∀ i : grid1.Coords, EltTy.bits .f32 = 32 ∨ (Rect.block (s := S2x524288) S2x131072.size (cc1_transform_5 i) (hinb1_5 i)).WholeWords (EltTy.packing .f32)

variable [Facts₀]

def gather_S262144_S8388608x1_S8388608_n_0_n_n_0_1_1 : GatherDims S262144 S8388608x1 S8388608 where
  offsetDims := []
  collapsedSliceDims := [0]
  operandBatchingDims := []
  startIndicesBatchingDims := []
  startIndexMap := [0]
  indexVectorDim := 1
  sliceSizes := ![1]
  wf := gather_S262144_S8388608x1_S8388608_n_0_n_n_0_1_1_wf
def scatter_S262144x2_S8388608x1_S8388608x2_1_0_0_1 : ScatterDims S262144x2 S8388608x1 S8388608x2 where
  updateWindowDims := [1]
  insertedWindowDims := [0]
  scatterDimsToOperandDims := [0]
  indexVectorDim := 1
  wf := scatter_S262144x2_S8388608x1_S8388608x2_1_0_0_1_wf
def gather_S262144_S524288x1_S524288_n_0_n_n_0_1_1 : GatherDims S262144 S524288x1 S524288 where
  offsetDims := []
  collapsedSliceDims := [0]
  operandBatchingDims := []
  startIndicesBatchingDims := []
  startIndexMap := [0]
  indexVectorDim := 1
  sliceSizes := ![1]
  wf := gather_S262144_S524288x1_S524288_n_0_n_n_0_1_1_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def scatter_S262144x2_S524288x1_S524288x2_1_0_0_1 : ScatterDims S262144x2 S524288x1 S524288x2 where
  updateWindowDims := [1]
  insertedWindowDims := [0]
  scatterDimsToOperandDims := [0]
  indexVectorDim := 1
  wf := scatter_S262144x2_S524288x1_S524288x2_1_0_0_1_wf

abbrev win0_0 : Pipeline.Window sig grid0 :=
  Pipeline.Window.ofSpec (Memref.whole main_arg3) S131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S131072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S131072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S131072.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2x131072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg7) S131072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2x131072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S131072.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S131072.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v50) S131072.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v53) S2x131072.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S262144x2 : Shape := ⟨2, ![262144, 2]⟩
abbrev S262144 : Shape := ⟨1, ![262144]⟩
abbrev S8388608 : Shape := ⟨1, ![8388608]⟩
abbrev S8388608x2 : Shape := ⟨2, ![8388608, 2]⟩
abbrev S16384 : Shape := ⟨1, ![16384]⟩
abbrev S524288 : Shape := ⟨1, ![524288]⟩
abbrev S524288x2 : Shape := ⟨2, ![524288, 2]⟩
abbrev S_ : Shape := ⟨0, ![]⟩
abbrev S8388608x1 : Shape := ⟨2, ![8388608, 1]⟩
abbrev S524288x1 : Shape := ⟨2, ![524288, 1]⟩

abbrev nBuf : Space → Nat
  | .hbm => 239
  | .vmem => 0
  | .smem => 0
  | _ => 0

abbrev hbmTy0_0 (i : Nat) : BufTy := match i % 128 with
  | 0 => ⟨S262144x2, .f32⟩
  | 1 => ⟨S262144, .f32⟩
  | 2 => ⟨S262144, .f32⟩
  | 3 => ⟨S8388608, .f32⟩
  | 4 => ⟨S8388608x2, .f32⟩
  | 5 => ⟨S16384, .f32⟩
  | 6 => ⟨S16384, .f32⟩
  | 7 => ⟨S524288, .f32⟩
  | 8 => ⟨S524288x2, .f32⟩
  | 9 => ⟨S8388608, .i32⟩
  | 10 => ⟨S8388608, .i32⟩
  | 11 => ⟨S524288, .i32⟩
  | 12 => ⟨S524288, .i32⟩
  | 13 => ⟨S262144x2, .f32⟩
  | 14 => ⟨S_, .f32⟩
  | 15 => ⟨S262144, .f32⟩
  | 16 => ⟨S262144, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S8388608, .f32⟩
  | 43 => ⟨S8388608, .f32⟩
  | 44 => ⟨S_, .f32⟩
  | 45 => ⟨S8388608, .f32⟩
  | 46 => ⟨S8388608, .f32⟩
  | 47 => ⟨S_, .f32⟩
  | 48 => ⟨S8388608, .f32⟩
  | 49 => ⟨S8388608, .f32⟩
  | 50 => ⟨S8388608, .f32⟩
  | 51 => ⟨S8388608, .f32⟩
  | 52 => ⟨S_, .f32⟩
  | 53 => ⟨S8388608, .f32⟩
  | 54 => ⟨S8388608, .f32⟩
  | 55 => ⟨S_, .f32⟩
  | 56 => ⟨S8388608, .f32⟩
  | 57 => ⟨S8388608, .f32⟩
  | 58 => ⟨S_, .f32⟩
  | 59 => ⟨S8388608, .f32⟩
  | 60 => ⟨S8388608, .f32⟩
  | 61 => ⟨S8388608, .f32⟩
  | 62 => ⟨S8388608, .f32⟩
  | 63 => ⟨S8388608, .f32⟩
  | 64 => ⟨S8388608, .f32⟩
  | 65 => ⟨S8388608, .f32⟩
  | 66 => ⟨S_, .f32⟩
  | 67 => ⟨S8388608, .f32⟩
  | 68 => ⟨S8388608, .f32⟩
  | 69 => ⟨S_, .f32⟩
  | 70 => ⟨S8388608, .f32⟩
  | 71 => ⟨S8388608, .f32⟩
  | 72 => ⟨S_, .f32⟩
  | 73 => ⟨S_, .f32⟩
  | 74 => ⟨S_, .f32⟩
  | 75 => ⟨S8388608, .f32⟩
  | 76 => ⟨S8388608, .f32⟩
  | 77 => ⟨S_, .f32⟩
  | 78 => ⟨S8388608, .f32⟩
  | 79 => ⟨S8388608, .f32⟩
  | 80 => ⟨S_, .f32⟩
  | 81 => ⟨S8388608, .f32⟩
  | 82 => ⟨S8388608, .f32⟩
  | 83 => ⟨S_, .f32⟩
  | 84 => ⟨S8388608, .f32⟩
  | 85 => ⟨S8388608, .f32⟩
  | 86 => ⟨S8388608, .f32⟩
  | 87 => ⟨S8388608, .f32⟩
  | 88 => ⟨S8388608, .f32⟩
  | 89 => ⟨S_, .f32⟩
  | 90 => ⟨S8388608, .f32⟩
  | 91 => ⟨S8388608, .f32⟩
  | 92 => ⟨S8388608x1, .f32⟩
  | 93 => ⟨S8388608x2, .f32⟩
  | 94 => ⟨S8388608x2, .f32⟩
  | 95 => ⟨S_, .i32⟩
  | 96 => ⟨S8388608, .i32⟩
  | 97 => ⟨S8388608, .i1⟩
  | 98 => ⟨S_, .i32⟩
  | 99 => ⟨S8388608, .i32⟩
  | 100 => ⟨S8388608, .i32⟩
  | 101 => ⟨S8388608, .i32⟩
  | 102 => ⟨S8388608x1, .i32⟩
  | 103 => ⟨S8388608, .f32⟩
  | 104 => ⟨S_, .i32⟩
  | 105 => ⟨S8388608, .i32⟩
  | 106 => ⟨S8388608, .i1⟩
  | 107 => ⟨S_, .i32⟩
  | 108 => ⟨S8388608, .i32⟩
  | 109 => ⟨S8388608, .i32⟩
  | 110 => ⟨S8388608, .i32⟩
  | 111 => ⟨S8388608x1, .i32⟩
  | 112 => ⟨S8388608, .f32⟩
  | 113 => ⟨S_, .i32⟩
  | 114 => ⟨S8388608, .i32⟩
  | 115 => ⟨S8388608, .i1⟩
  | 116 => ⟨S_, .i32⟩
  | 117 => ⟨S8388608, .i32⟩
  | 118 => ⟨S8388608, .i32⟩
  | 119 => ⟨S8388608, .i32⟩
  | 120 => ⟨S8388608x1, .i32⟩
  | 121 => ⟨S8388608, .f32⟩
  | 122 => ⟨S8388608, .f32⟩
  | 123 => ⟨S8388608, .f32⟩
  | 124 => ⟨S8388608, .f32⟩
  | 125 => ⟨S8388608x1, .f32⟩
  | 126 => ⟨S8388608x2, .f32⟩
  | 127 => ⟨S8388608x2, .f32⟩
  | _ => ⟨S262144x2, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S262144x2, .f32⟩
  | 6 => ⟨S8388608x1, .i32⟩
  | 7 => ⟨S262144x2, .f32⟩
  | 8 => ⟨S262144x2, .f32⟩
  | 9 => ⟨S262144x2, .f32⟩
  | 10 => ⟨S_, .f32⟩
  | 11 => ⟨S_, .f32⟩
  | 12 => ⟨S_, .f32⟩
  | 13 => ⟨S524288, .f32⟩
  | 14 => ⟨S524288, .f32⟩
  | 15 => ⟨S_, .f32⟩
  | 16 => ⟨S524288, .f32⟩
  | 17 => ⟨S524288, .f32⟩
  | 18 => ⟨S_, .f32⟩
  | 19 => ⟨S524288, .f32⟩
  | 20 => ⟨S524288, .f32⟩
  | 21 => ⟨S524288, .f32⟩
  | 22 => ⟨S524288, .f32⟩
  | 23 => ⟨S_, .f32⟩
  | 24 => ⟨S524288, .f32⟩
  | 25 => ⟨S524288, .f32⟩
  | 26 => ⟨S_, .f32⟩
  | 27 => ⟨S524288, .f32⟩
  | 28 => ⟨S524288, .f32⟩
  | 29 => ⟨S_, .f32⟩
  | 30 => ⟨S524288, .f32⟩
  | 31 => ⟨S524288, .f32⟩
  | 32 => ⟨S524288, .f32⟩
  | 33 => ⟨S524288, .f32⟩
  | 34 => ⟨S524288, .f32⟩
  | 35 => ⟨S524288, .f32⟩
  | 36 => ⟨S524288, .f32⟩
  | 37 => ⟨S_, .f32⟩
  | 38 => ⟨S524288, .f32⟩
  | 39 => ⟨S524288, .f32⟩
  | 40 => ⟨S_, .f32⟩
  | 41 => ⟨S524288, .f32⟩
  | 42 => ⟨S524288, .f32⟩
  | 43 => ⟨S524288x2, .f32⟩
  | 44 => ⟨S_, .f32⟩
  | 45 => ⟨S_, .f32⟩
  | 46 => ⟨S_, .f32⟩
  | 47 => ⟨S524288, .f32⟩
  | 48 => ⟨S524288, .f32⟩
  | 49 => ⟨S_, .f32⟩
  | 50 => ⟨S524288, .f32⟩
  | 51 => ⟨S524288, .f32⟩
  | 52 => ⟨S_, .f32⟩
  | 53 => ⟨S524288, .f32⟩
  | 54 => ⟨S524288, .f32⟩
  | 55 => ⟨S_, .f32⟩
  | 56 => ⟨S524288, .f32⟩
  | 57 => ⟨S524288, .f32⟩
  | 58 => ⟨S524288, .f32⟩
  | 59 => ⟨S524288, .f32⟩
  | 60 => ⟨S524288, .f32⟩
  | 61 => ⟨S_, .f32⟩
  | 62 => ⟨S524288, .f32⟩
  | 63 => ⟨S524288, .f32⟩
  | 64 => ⟨S524288x1, .f32⟩
  | 65 => ⟨S524288x2, .f32⟩
  | 66 => ⟨S524288x2, .f32⟩
  | 67 => ⟨S_, .i32⟩
  | 68 => ⟨S524288, .i32⟩
  | 69 => ⟨S524288, .i1⟩
  | 70 => ⟨S_, .i32⟩
  | 71 => ⟨S524288, .i32⟩
  | 72 => ⟨S524288, .i32⟩
  | 73 => ⟨S524288, .i32⟩
  | 74 => ⟨S524288x1, .i32⟩
  | 75 => ⟨S524288, .f32⟩
  | 76 => ⟨S_, .i32⟩
  | 77 => ⟨S524288, .i32⟩
  | 78 => ⟨S524288, .i1⟩
  | 79 => ⟨S_, .i32⟩
  | 80 => ⟨S524288, .i32⟩
  | 81 => ⟨S524288, .i32⟩
  | 82 => ⟨S524288, .i32⟩
  | 83 => ⟨S524288x1, .i32⟩
  | 84 => ⟨S524288, .f32⟩
  | 85 => ⟨S_, .i32⟩
  | 86 => ⟨S524288, .i32⟩
  | 87 => ⟨S524288, .i1⟩
  | 88 => ⟨S_, .i32⟩
  | 89 => ⟨S524288, .i32⟩
  | 90 => ⟨S524288, .i32⟩
  | 91 => ⟨S524288, .i32⟩
  | 92 => ⟨S524288x1, .i32⟩
  | 93 => ⟨S524288, .f32⟩
  | 94 => ⟨S524288, .f32⟩
  | 95 => ⟨S524288, .f32⟩
  | 96 => ⟨S524288, .f32⟩
  | 97 => ⟨S524288x1, .f32⟩
  | 98 => ⟨S524288x2, .f32⟩
  | 99 => ⟨S524288x2, .f32⟩
  | 100 => ⟨S_, .f32⟩
  | 101 => ⟨S_, .f32⟩
  | 102 => ⟨S_, .f32⟩
  | 103 => ⟨S_, .f32⟩
  | 104 => ⟨S_, .f32⟩
  | 105 => ⟨S262144x2, .f32⟩
  | 106 => ⟨S524288x1, .i32⟩
  | 107 => ⟨S262144x2, .f32⟩
  | 108 => ⟨S262144x2, .f32⟩
  | 109 => ⟨S262144x2, .f32⟩
  | 110 => ⟨S262144x2, .f32⟩
  | _ => ⟨S262144x2, .f32⟩

abbrev hbmTy (i : Nat) : BufTy := match i / 128 with
  | 0 => hbmTy0_0 i
  | 1 => hbmTy0_1 i
  | _ => ⟨S262144x2, .f32⟩

abbrev bufTy : (tb : Table) → Fin (tcTables nBuf tb) → BufTy
  | .hbm, ⟨i, _⟩ => hbmTy i
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_cst_1 : Ref sig .tc := ⟨.hbm, 21, rfl⟩
abbrev main_cst_2 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v3 : Ref sig .tc := ⟨.hbm, 27, rfl⟩
abbrev main_cst_4 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_5 : Ref sig .tc := ⟨.hbm, 32, rfl⟩
abbrev main_v7 : Ref sig .tc := ⟨.hbm, 33, rfl⟩
abbrev main_cst_6 : Ref sig .tc := ⟨.hbm, 34, rfl⟩
abbrev main_v8 : Ref sig .tc := ⟨.hbm, 35, rfl⟩
abbrev main_cst_7 : Ref sig .tc := ⟨.hbm, 36, rfl⟩
abbrev main_v9 : Ref sig .tc := ⟨.hbm, 37, rfl⟩
abbrev main_v10 : Ref sig .tc := ⟨.hbm, 38, rfl⟩
abbrev main_cst_8 : Ref sig .tc := ⟨.hbm, 39, rfl⟩
abbrev main_cst_9 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v11 : Ref sig .tc := ⟨.hbm, 46, rfl⟩
abbrev main_cst_10 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_11 : Ref sig .tc := ⟨.hbm, 52, rfl⟩
abbrev main_v16 : Ref sig .tc := ⟨.hbm, 53, rfl⟩
abbrev main_v17 : Ref sig .tc := ⟨.hbm, 54, rfl⟩
abbrev main_cst_12 : Ref sig .tc := ⟨.hbm, 55, rfl⟩
abbrev main_v18 : Ref sig .tc := ⟨.hbm, 56, rfl⟩
abbrev main_v19 : Ref sig .tc := ⟨.hbm, 57, rfl⟩
abbrev main_cst_13 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_14 : Ref sig .tc := ⟨.hbm, 66, rfl⟩
abbrev main_v27 : Ref sig .tc := ⟨.hbm, 67, rfl⟩
abbrev main_v28 : Ref sig .tc := ⟨.hbm, 68, rfl⟩
abbrev main_cst_15 : Ref sig .tc := ⟨.hbm, 69, rfl⟩
abbrev main_v29 : Ref sig .tc := ⟨.hbm, 70, rfl⟩
abbrev main_v30 : Ref sig .tc := ⟨.hbm, 71, rfl⟩
abbrev main_cst_16 : Ref sig .tc := ⟨.hbm, 72, rfl⟩
abbrev main_cst_17 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v31 : Ref sig .tc := ⟨.hbm, 79, rfl⟩
abbrev main_cst_18 : Ref sig .tc := ⟨.hbm, 80, rfl⟩
abbrev main_v32 : Ref sig .tc := ⟨.hbm, 81, rfl⟩
abbrev main_v33 : Ref sig .tc := ⟨.hbm, 82, rfl⟩
abbrev main_cst_19 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_cst_20 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_c : Ref sig .tc := ⟨.hbm, 95, rfl⟩
abbrev main_v44 : Ref sig .tc := ⟨.hbm, 96, rfl⟩
abbrev main_v45 : Ref sig .tc := ⟨.hbm, 97, rfl⟩
abbrev main_c_21 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_c_22 : Ref sig .tc := ⟨.hbm, 104, rfl⟩
abbrev main_v51 : Ref sig .tc := ⟨.hbm, 105, rfl⟩
abbrev main_v52 : Ref sig .tc := ⟨.hbm, 106, rfl⟩
abbrev main_c_23 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_c_24 : Ref sig .tc := ⟨.hbm, 113, rfl⟩
abbrev main_v58 : Ref sig .tc := ⟨.hbm, 114, rfl⟩
abbrev main_v59 : Ref sig .tc := ⟨.hbm, 115, rfl⟩
abbrev main_c_25 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_26 : Ref sig .tc := ⟨.hbm, 128, rfl⟩
abbrev main_v71 : Ref sig .tc := ⟨.hbm, 129, rfl⟩
abbrev main_cst_27 : Ref sig .tc := ⟨.hbm, 130, rfl⟩
abbrev main_v72 : Ref sig .tc := ⟨.hbm, 131, rfl⟩
abbrev main_cst_28 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_cst_29 : Ref sig .tc := ⟨.hbm, 138, rfl⟩
abbrev main_cst_30 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_v78 : Ref sig .tc := ⟨.hbm, 145, rfl⟩
abbrev main_cst_31 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_cst_32 : Ref sig .tc := ⟨.hbm, 151, rfl⟩
abbrev main_v83 : Ref sig .tc := ⟨.hbm, 152, rfl⟩
abbrev main_v84 : Ref sig .tc := ⟨.hbm, 153, rfl⟩
abbrev main_cst_33 : Ref sig .tc := ⟨.hbm, 154, rfl⟩
abbrev main_v85 : Ref sig .tc := ⟨.hbm, 155, rfl⟩
abbrev main_v86 : Ref sig .tc := ⟨.hbm, 156, rfl⟩
abbrev main_cst_34 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_35 : Ref sig .tc := ⟨.hbm, 165, rfl⟩
abbrev main_v94 : Ref sig .tc := ⟨.hbm, 166, rfl⟩
abbrev main_v95 : Ref sig .tc := ⟨.hbm, 167, rfl⟩
abbrev main_cst_36 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_cst_37 : Ref sig .tc := ⟨.hbm, 172, rfl⟩
abbrev main_cst_38 : Ref sig .tc := ⟨.hbm, 173, rfl⟩
abbrev main_call5_v0 : Ref sig .tc := ⟨.hbm, 174, rfl⟩
abbrev main_call5_v1 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_v99 : Ref sig .tc := ⟨.hbm, 179, rfl⟩
abbrev main_cst_39 : Ref sig .tc := ⟨.hbm, 180, rfl⟩
abbrev main_v100 : Ref sig .tc := ⟨.hbm, 181, rfl⟩
abbrev main_v101 : Ref sig .tc := ⟨.hbm, 182, rfl⟩
abbrev main_cst_40 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_cst_41 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_c_42 : Ref sig .tc := ⟨.hbm, 195, rfl⟩
abbrev main_v112 : Ref sig .tc := ⟨.hbm, 196, rfl⟩
abbrev main_v113 : Ref sig .tc := ⟨.hbm, 197, rfl⟩
abbrev main_c_43 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_c_44 : Ref sig .tc := ⟨.hbm, 204, rfl⟩
abbrev main_v119 : Ref sig .tc := ⟨.hbm, 205, rfl⟩
abbrev main_v120 : Ref sig .tc := ⟨.hbm, 206, rfl⟩
abbrev main_c_45 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_c_46 : Ref sig .tc := ⟨.hbm, 213, rfl⟩
abbrev main_v126 : Ref sig .tc := ⟨.hbm, 214, rfl⟩
abbrev main_v127 : Ref sig .tc := ⟨.hbm, 215, rfl⟩
abbrev main_c_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_cst_48 : Ref sig .tc := ⟨.hbm, 228, rfl⟩
abbrev main_v139 : Ref sig .tc := ⟨.hbm, 229, rfl⟩
abbrev main_cst_49 : Ref sig .tc := ⟨.hbm, 230, rfl⟩
abbrev main_v140 : Ref sig .tc := ⟨.hbm, 231, rfl⟩
abbrev main_cst_50 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩

abbrev nD : Nat := 1
abbrev τ : Topo := Topo.v7x

variable {F : FTy → Type} [FloatOps F]

class Facts₀ : Prop where
  reducesTo_S262144x2_S262144_d1 : S262144x2.ReducesTo [1] S262144
  h_S_ : 0 < S_.numel
  reducesTo_S262144_S_d0 : S262144.ReducesTo [0] S_
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x2_0_1 : S8388608x1.BroadcastsInDim S8388608x2 (![0, 1] : Fin 2 → Fin S8388608x2.rank)
  bcast_S_S262144x2 : S_.BroadcastsInDim S262144x2 (![] : Fin 0 → Fin S262144x2.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x2_0_1 : S524288x1.BroadcastsInDim S524288x2 (![0, 1] : Fin 2 → Fin S524288x2.rank)
  gather_S262144_S8388608x1_S8388608_n_0_n_n_0_1_1_wf : GatherDims.WF S262144 S8388608x1 S8388608 [] [0] [] [0] [] 1 ![1]
  scatter_S262144x2_S8388608x1_S8388608x2_1_0_0_1_wf : ScatterDims.WF S262144x2 S8388608x1 S8388608x2 [1] [0] [0] 1
  gather_S16384_S524288x1_S524288_n_0_n_n_0_1_1_wf : GatherDims.WF S16384 S524288x1 S524288 [] [0] [] [0] [] 1 ![1]
  gather_S262144_S524288x1_S524288_n_0_n_n_0_1_1_wf : GatherDims.WF S262144 S524288x1 S524288 [] [0] [] [0] [] 1 ![1]
  scatter_S262144x2_S524288x1_S524288x2_1_0_0_1_wf : ScatterDims.WF S262144x2 S524288x1 S524288x2 [1] [0] [0] 1

variable [Facts₀]

def gather_S262144_S8388608x1_S8388608_n_0_n_n_0_1_1 : GatherDims S262144 S8388608x1 S8388608 where
  offsetDims := []
  collapsedSliceDims := [0]
  operandBatchingDims := []
  startIndicesBatchingDims := []
  startIndexMap := [0]
  indexVectorDim := 1
  sliceSizes := ![1]
  wf := gather_S262144_S8388608x1_S8388608_n_0_n_n_0_1_1_wf
def scatter_S262144x2_S8388608x1_S8388608x2_1_0_0_1 : ScatterDims S262144x2 S8388608x1 S8388608x2 where
  updateWindowDims := [1]
  insertedWindowDims := [0]
  scatterDimsToOperandDims := [0]
  indexVectorDim := 1
  wf := scatter_S262144x2_S8388608x1_S8388608x2_1_0_0_1_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def gather_S262144_S524288x1_S524288_n_0_n_n_0_1_1 : GatherDims S262144 S524288x1 S524288 where
  offsetDims := []
  collapsedSliceDims := [0]
  operandBatchingDims := []
  startIndicesBatchingDims := []
  startIndexMap := [0]
  indexVectorDim := 1
  sliceSizes := ![1]
  wf := gather_S262144_S524288x1_S524288_n_0_n_n_0_1_1_wf
def scatter_S262144x2_S524288x1_S524288x2_1_0_0_1 : ScatterDims S262144x2 S524288x1 S524288x2 where
  updateWindowDims := [1]
  insertedWindowDims := [0]
  scatterDimsToOperandDims := [0]
  indexVectorDim := 1
  wf := scatter_S262144x2_S524288x1_S524288x2_1_0_0_1_wf

class Facts : Prop extends Facts₀ where

variable [Facts]
-- ==== Proof.Msg.lean ====
/-
  The per-edge message of the particle-shifting sum, as one function of extended reals, and the three
  algebraic facts the certificate rests on.

  For an edge with clipped radial distance q = min 1 (max 0 r), direction component d, the two densities
  da, db and the neighbour's area (or volume) mb, both programs compute

      msg wk r d da db mb = ((1 + R · ((wk·wk)·(wk·wk))) · (mb / (da + db))) · ((C/h · ((−20·q) · ((1−q)²·(1−q)))) · d),

  in this order of operations, where wk is the Wendland weight w(r) = (C · ((1−q)²)²) · (1 + 4q) normalised by
  its value k0 = w(1/2) at the packing distance. They differ only in how they normalise: one multiplies w by a
  constant standing for 1/k0, the other divides w by k0, which it computes from the same literals. With the
  constant read as the exact reciprocal 131072/21903795 of k0 = 21903795/131072 the two are one extended real
  (`div_k0`): dividing by a nonzero real is multiplying by its reciprocal, on every extended real.

  The final scale s multiplies a sum of two segment sums on one side and each segment sum on the other;
  s · (a + b) = s · a + s · b holds on the extended reals when s, a, b are real numbers (`scale_distrib`), and
  a message is a real number when its inputs are and its denominator is not zero (`msg_real`).
-/
import Idealize.ShloMosaic.PureOps.Ideal

noncomputable section

namespace Cert.Msg

open Idealize.ShloMosaic

/-! ## The literals, as the reals their patterns denote -/

theorem lit_zero : Ideal.ofBits .f32 0x00000000#32 = ((0 : ℝ) : EReal) := by
  simp [Ideal.ofBits, Ideal.ieee]
theorem lit_one : Ideal.ofBits .f32 0x3F800000#32 = ((1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_C : Ideal.ofBits .f32 0x445ED122#32 = ((7301265 / 8192 : ℝ) : EReal) := by
  simp [Ideal.ofBits, Ideal.ieee, -EReal.coe_mul]; norm_num
theorem lit_R : Ideal.ofBits .f32 0x3E4CCCCD#32 = ((13421773 / 67108864 : ℝ) : EReal) := by
  simp [Ideal.ofBits, Ideal.ieee, -EReal.coe_mul]; norm_num
theorem lit_m20 : Ideal.ofBits .f32 0xC1A00000#32 = ((-20 : ℝ) : EReal) := by
  simp [Ideal.ofBits, Ideal.ieee, -EReal.coe_mul]; norm_num
theorem lit_Ch : Ideal.ofBits .f32 0x468B42B5#32 = ((9126581 / 512 : ℝ) : EReal) := by
  simp [Ideal.ofBits, Ideal.ieee, -EReal.coe_mul]; norm_num
theorem lit_m32 : Ideal.ofBits .f32 0xBFC00000#32 = ((-3 / 2 : ℝ) : EReal) := by
  simp [Ideal.ofBits, Ideal.ieee, -EReal.coe_mul]; norm_num
theorem lit_supp : Ideal.ofBits .f32 0x3C23D70A#32 = ((5368709 / 536870912 : ℝ) : EReal) := by
  simp [Ideal.ofBits, Ideal.ieee, -EReal.coe_mul]; norm_num
theorem lit_c0 : Ideal.ofBits .f32 0x41C216B1#32 = ((12719793 / 524288 : ℝ) : EReal) := by
  simp [Ideal.ofBits, Ideal.ieee, -EReal.coe_mul]; norm_num

/-! ## The message -/

/-- q = min 1 (max 0 r). -/
def clip (r : EReal) : EReal :=
  min (Ideal.ofBits .f32 0x3F800000#32) (max (Ideal.ofBits .f32 0x00000000#32) r)

/-- The Wendland weight (C · ((1−q)²)²) · (1 + 4q). -/
def wend (r : EReal) : EReal :=
  (Ideal.ofBits .f32 0x445ED122#32 *
      (((Ideal.ofBits .f32 0x3F800000#32 - clip r) * (Ideal.ofBits .f32 0x3F800000#32 - clip r)) *
        ((Ideal.ofBits .f32 0x3F800000#32 - clip r) * (Ideal.ofBits .f32 0x3F800000#32 - clip r)))) *
    (Ideal.ofBits .f32 0x3F800000#32 + Ideal.ofBits .f32 0x40800000#32 * clip r)

/-- 1 + R · wk⁴, the fourth power as a square of a square. -/
def kterm (wk : EReal) : EReal :=
  Ideal.ofBits .f32 0x3F800000#32 + Ideal.ofBits .f32 0x3E4CCCCD#32 * ((wk * wk) * (wk * wk))

/-- The radial derivative times the direction component: (C/h · ((−20·q) · ((1−q)²·(1−q)))) · d. -/
def grad (r d : EReal) : EReal :=
  (Ideal.ofBits .f32 0x468B42B5#32 *
      ((Ideal.ofBits .f32 0xC1A00000#32 * clip r) *
        (((Ideal.ofBits .f32 0x3F800000#32 - clip r) * (Ideal.ofBits .f32 0x3F800000#32 - clip r)) *
          (Ideal.ofBits .f32 0x3F800000#32 - clip r)))) * d

/-- One edge's message, from the normalised weight wk. -/
def msg (wk r d da db mb : EReal) : EReal :=
  (kterm wk * Ideal.div mb (da + db)) * grad r d

/-! ## Real numbers among the extended reals -/

/-- An extended real that is a real number. -/
def IsReal (x : EReal) : Prop := ∃ a : ℝ, x = (a : EReal)

theorem IsReal.coe (a : ℝ) : IsReal (a : EReal) := ⟨a, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.min {x y : EReal} (hx : IsReal x) (hy : IsReal y) : IsReal (min x y) := by
  rcases le_total x y with h | h
  · rw [min_eq_left h]; exact hx
  · rw [min_eq_right h]; exact hy
/-- A quotient of reals with a nonzero denominator is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]; exact IsReal.mul ⟨a, rfl⟩ ⟨1 / b, rfl⟩
/-- A finite sum of reals is a real. -/
theorem IsReal.sum {ι : Type} (s : Finset ι) (f : ι → EReal) (h : ∀ j, IsReal (f j)) : IsReal (∑ j ∈ s, f j) := by
  classical
  induction s using Finset.induction_on with
  | empty => exact ⟨0, by simp⟩
  | insert a s ha ih => rw [Finset.sum_insert ha]; exact IsReal.add (h a) ih

theorem real_zero : IsReal (Ideal.ofBits .f32 0x00000000#32) := ⟨_, lit_zero⟩
theorem real_one : IsReal (Ideal.ofBits .f32 0x3F800000#32) := ⟨_, lit_one⟩
theorem real_four : IsReal (Ideal.ofBits .f32 0x40800000#32) := ⟨_, lit_four⟩
theorem real_C : IsReal (Ideal.ofBits .f32 0x445ED122#32) := ⟨_, lit_C⟩
theorem real_R : IsReal (Ideal.ofBits .f32 0x3E4CCCCD#32) := ⟨_, lit_R⟩
theorem real_m20 : IsReal (Ideal.ofBits .f32 0xC1A00000#32) := ⟨_, lit_m20⟩
theorem real_Ch : IsReal (Ideal.ofBits .f32 0x468B42B5#32) := ⟨_, lit_Ch⟩

theorem clip_real {r : EReal} (hr : IsReal r) : IsReal (clip r) :=
  IsReal.min real_one (IsReal.max real_zero hr)
theorem wend_real {r : EReal} (hr : IsReal r) : IsReal (wend r) := by
  have hq := clip_real hr
  have ho := IsReal.sub real_one hq
  exact IsReal.mul (IsReal.mul real_C (IsReal.mul (IsReal.mul ho ho) (IsReal.mul ho ho)))
    (IsReal.add real_one (IsReal.mul real_four hq))
theorem kterm_real {wk : EReal} (h : IsReal wk) : IsReal (kterm wk) :=
  IsReal.add real_one (IsReal.mul real_R (IsReal.mul (IsReal.mul h h) (IsReal.mul h h)))
theorem grad_real {r d : EReal} (hr : IsReal r) (hd : IsReal d) : IsReal (grad r d) := by
  have hq := clip_real hr
  have ho := IsReal.sub real_one hq
  exact IsReal.mul (IsReal.mul real_Ch (IsReal.mul (IsReal.mul real_m20 hq) (IsReal.mul (IsReal.mul ho ho) ho))) hd
/-- A message is a real number when its inputs are and its denominator is not zero. -/
theorem msg_real {wk r d da db mb : EReal} (hwk : IsReal wk) (hr : IsReal r) (hd : IsReal d) (hda : IsReal da)
    (hdb : IsReal db) (hmb : IsReal mb) (h0 : da + db ≠ 0) : IsReal (msg wk r d da db mb) :=
  IsReal.mul (IsReal.mul (kterm_real hwk) (IsReal.div hmb (IsReal.add hda hdb) h0)) (grad_real hr hd)

/-! ## The normalising constant -/

/-- The weight at the packing distance 1/2: k0 = (C · ((1/2)²)²) · (1 + 4 · 1/2) = 3C/16. -/
theorem k0_val : wend (Ideal.ofBits .f32 0x3F000000#32) = ((21903795 / 131072 : ℝ) : EReal) := by
  have hq : clip (Ideal.ofBits .f32 0x3F000000#32) = ((1 / 2 : ℝ) : EReal) := by
    unfold clip
    rw [lit_one, lit_zero, lit_half, max_eq_right (by exact_mod_cast (by norm_num : (0 : ℝ) ≤ 1 / 2)),
      min_eq_right (by exact_mod_cast (by norm_num : (1 / 2 : ℝ) ≤ 1))]
  unfold wend
  rw [hq, lit_C, lit_one, lit_four]
  simp only [← EReal.coe_sub, ← EReal.coe_mul, ← EReal.coe_add]
  congr 1; norm_num

/-- Dividing the weight by k0 is multiplying it by the exact reciprocal of k0, on every extended real. -/
theorem div_k0 (w : EReal) :
    Ideal.div w (wend (Ideal.ofBits .f32 0x3F000000#32)) = w * ((131072 / 21903795 : ℝ) : EReal) := by
  rw [k0_val, Ideal.div_coe (by norm_num)]
  congr 2; norm_num

/-! ## The scale over the two segment sums -/

/-- On real numbers the extended reals' product distributes over their sum. -/
theorem scale_distrib {s a b : EReal} (hs : IsReal s) (ha : IsReal a) (hb : IsReal b) :
    s * (a + b) = s * a + s * b := by
  obtain ⟨s, rfl⟩ := hs; obtain ⟨a, rfl⟩ := ha; obtain ⟨b, rfl⟩ := hb
  simp only [← EReal.coe_mul, ← EReal.coe_add]
  congr 1; ring

end Cert.Msg

end
-- ==== Proof.KernelBody.lean ====
/-
  The kernel body's result at one index. For both launches the body computes, at row c ∈ {0, 1} and lane l of a
  block, the message of the edge in lane l with the direction component in row c: the five blocks it loads are
  the radial distances, the transposed directions (2 × tile), the two densities and the neighbour's area, and
  the weight is normalised by the named reciprocal of k0. The only operations that are not lane-by-lane are the
  lifts of a lane vector to the two rows (a cast [a] → [1, a] followed by a row broadcast [1, a] → [2, a]),
  which read the lane vector at l whatever the row.
-/
import proofs.«159046_j47021301957201_2_alg».proof.Proof.Gen.KernelIdeal.Skeleton
import proofs.«159046_j47021301957201_2_alg».proof.Proof.Msg
import Idealize.ShloMosaic.Lib.ValueIdx
import Idealize.ShloMosaic.Lib.ValueLayout
import Idealize.ShloMosaic.Lib.Pipeline.Value
import Idealize.ShloMosaic.PureOps.IdealRules

noncomputable section

namespace Cert.KernelBody

open Idealize.ShloMosaic Idealize.ShloMosaic.ValueIdx Cert.KernelIdeal Cert.KernelIdeal.Gen Cert.Msg

/-- The named constant is the exact reciprocal of k0. -/
theorem kappa_val : Named.named (F := Ideal) Cert.KernelIdeal.κ "inv_k0" (φ := .f32) 0x3BC41550#32
    = ((131072 / 21903795 : ℝ) : EReal) :=
  IdealRules.named_const.ideal_named_scalar _ _ _ _ rfl

/-- A lane vector lifted to the two rows reads, at (c, l), the lane vector at l. -/
theorem rows_apply (v : FVec Ideal S131072 .f32) (c : Fin 2) (l : Fin 131072) :
    broadcastTo S2x131072 (shapeCast S1x131072 v shapeCasts_S131072_S1x131072) broadcasts_S1x131072_S2x131072 (ix2 c l)
      = v (ix1 l) := by
  rw [broadcastTo_1b_ab_apply, shapeCast_a_1a_apply]

/-- The first launch's body at (c, l). -/
theorem pay0_apply (x0 x2 x3 x4 : FVec Ideal S131072 .f32) (x1 : FVec Ideal S2x131072 .f32) (c : Fin 2) (l : Fin 131072) :
    k0_pay1 (F := Ideal) (k0_pay2 x4) (k0_pay6 x0) (k0_pay7 x0 x1) (k0_pay8 x2 x3) (ix2 c l)
      = msg (wend (x0 (ix1 l)) * ((131072 / 21903795 : ℝ) : EReal)) (x0 (ix1 l)) (x1 (ix2 c l)) (x2 (ix1 l)) (x3 (ix1 l)) (x4 (ix1 l)) := by
  unfold k0_pay1 k0_pay7
  simp only [mulf_apply, rows_apply, shapeCast_self]
  unfold k0_pay2 k0_pay6 k0_pay8 k0_pay5 k0_pay4 k0_pay3
  simp only [shapeCast_self, kappa_val]
  rfl

/-- The second launch's body at (c, l): the same function. -/
theorem pay1_apply (x0 x2 x3 x4 : FVec Ideal S131072 .f32) (x1 : FVec Ideal S2x131072 .f32) (c : Fin 2) (l : Fin 131072) :
    k1_pay1 (F := Ideal) (k1_pay2 x4) (k1_pay6 x0) (k1_pay7 x0 x1) (k1_pay8 x2 x3) (ix2 c l)
      = msg (wend (x0 (ix1 l)) * ((131072 / 21903795 : ℝ) : EReal)) (x0 (ix1 l)) (x1 (ix2 c l)) (x2 (ix1 l)) (x3 (ix1 l)) (x4 (ix1 l)) := by
  unfold k1_pay1 k1_pay7
  simp only [mulf_apply, rows_apply, shapeCast_self]
  unfold k1_pay2 k1_pay6 k1_pay8 k1_pay5 k1_pay4 k1_pay3
  simp only [shapeCast_self, kappa_val]
  rfl

end Cert.KernelBody

end
-- ==== Proof.KernelRegion0.lean ====
/-
  The first launch's output array. The grid has 64 points; point t loads lanes [t·131072, (t+1)·131072) of the
  radial distances, of the two gathered densities and of the gathered areas, and the 2 × 131072 block of the
  transposed directions at columns [t·131072, (t+1)·131072), and writes back the block of the output at the
  same columns. So the output array, 2 × 8388608, ends holding at (c, e) the message of edge e with direction
  component c: every index lies in exactly the block of point e / 131072.
-/
import proofs.«159046_j47021301957201_2_alg».proof.Proof.Gen.KernelIdeal.Frame
import proofs.«159046_j47021301957201_2_alg».proof.Proof.KernelBody
import Idealize.ShloMosaic.Lib.Pipeline.Value

set_option maxRecDepth 16384

noncomputable section

namespace Cert.KernelRegion0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Msg Cert.KernelBody

/-- The array of messages over 8388608 edges and two direction components, from the five arrays the launch reads. -/
def G (r : S8388608.Idx → EReal) (dT : S2x8388608.Idx → EReal) (da db mb : S8388608.Idx → EReal) :
    S2x8388608.Idx → EReal := fun i =>
  msg (wend (r (ix1 (i 1))) * ((131072 / 21903795 : ℝ) : EReal)) (r (ix1 (i 1))) (dT (ix2 (i 0) (i 1)))
    (da (ix1 (i 1))) (db (ix1 (i 1))) (mb (ix1 (i 1)))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: every lane window is at block t, every 2-row window at block (0, t). -/
theorem idx_facts : ∀ t : Fin cfg0.N, win0_0.index t (0 : Fin 1) = t.val
    ∧ win0_1.index t (0 : Fin 2) = 0 ∧ win0_1.index t (1 : Fin 2) = t.val
    ∧ win0_2.index t (0 : Fin 1) = t.val ∧ win0_3.index t (0 : Fin 1) = t.val ∧ win0_4.index t (0 : Fin 1) = t.val
    ∧ win0_5.index t (0 : Fin 2) = 0 ∧ win0_5.index t (1 : Fin 2) = t.val :=
  (by decide +kernel : ∀ t : Fin grid0.N, _)

variable (V : (c : Dev nD) → (b : Ref sig .tc) → Buf (Elt Ideal) ((c : Thread nD τ).loc b))

/-- What point t writes back is block t of the array of messages of the launch's five input arrays. -/
theorem flushed_eq (c : Dev nD) (t : Fin cfg0.N) :
    (dat0 V c).flushed 5 t = ((cfg0.win 5).blk t).view.read (Elt Ideal)
      (G (V c main_arg3) (V c main_v24) (V c main_v9) (V c main_v16) (V c main_v23)) := by
  show (cfg0.win 5).cut (grid0.coords t) ((dat0 V c).after 5 t) = _
  rw [after0_5]
  unfold out0_5
  rw [View.canon_unit_zero hz2]
  simp only [View.ld_unit_zero (S := S131072) hz1, View.ld_unit_zero (S := S2x131072) hz2]
  obtain ⟨e0, e1, e2, e3, e4, e5, e6, e7⟩ := idx_facts t
  have ht : t.val < 64 := lt_of_lt_of_eq t.isLt N_0
  funext j
  obtain ⟨p, q, rfl⟩ : ∃ (p : Fin 2) (q : Fin 131072), j = ix2 p q := ⟨j 0, j 1, eq_ix2 j⟩
  refine (pay0_apply (iblk0 V c 0 t) (iblk0 V c 2 t) (iblk0 V c 3 t) (iblk0 V c 4 t) (iblk0 V c 1 t) p q).trans ?_
  have hq : q.val < 131072 := q.isLt
  have he : t.val * 131072 + q.val < 8388608 := by omega
  have h0 : ((cfg0.win 0).blk t).view.emb (ix1 q) = ix1 (⟨t.val * 131072 + q.val, he⟩ : Fin 8388608) := by
    funext a; apply Fin.ext
    match a with
    | ⟨0, _⟩ => show win0_0.index t (0 : Fin 1) * 131072 + 1 * q.val = t.val * 131072 + q.val; omega
  have h2 : ((cfg0.win 2).blk t).view.emb (ix1 q) = ix1 (⟨t.val * 131072 + q.val, he⟩ : Fin 8388608) := by
    funext a; apply Fin.ext
    match a with
    | ⟨0, _⟩ => show win0_2.index t (0 : Fin 1) * 131072 + 1 * q.val = t.val * 131072 + q.val; omega
  have h3 : ((cfg0.win 3).blk t).view.emb (ix1 q) = ix1 (⟨t.val * 131072 + q.val, he⟩ : Fin 8388608) := by
    funext a; apply Fin.ext
    match a with
    | ⟨0, _⟩ => show win0_3.index t (0 : Fin 1) * 131072 + 1 * q.val = t.val * 131072 + q.val; omega
  have h4 : ((cfg0.win 4).blk t).view.emb (ix1 q) = ix1 (⟨t.val * 131072 + q.val, he⟩ : Fin 8388608) := by
    funext a; apply Fin.ext
    match a with
    | ⟨0, _⟩ => show win0_4.index t (0 : Fin 1) * 131072 + 1 * q.val = t.val * 131072 + q.val; omega
  have h1 : ((cfg0.win 1).blk t).view.emb (ix2 p q) = ix2 p (⟨t.val * 131072 + q.val, he⟩ : Fin 8388608) := by
    funext a; apply Fin.ext
    match a with
    | ⟨0, _⟩ => show win0_1.index t (0 : Fin 2) * 2 + 1 * p.val = p.val; omega
    | ⟨1, _⟩ => show win0_1.index t (1 : Fin 2) * 131072 + 1 * q.val = t.val * 131072 + q.val; omega
  have h5 : ((cfg0.win 5).blk t).view.emb (ix2 p q) = ix2 p (⟨t.val * 131072 + q.val, he⟩ : Fin 8388608) := by
    funext a; apply Fin.ext
    match a with
    | ⟨0, _⟩ => show win0_5.index t (0 : Fin 2) * 2 + 1 * p.val = p.val; omega
    | ⟨1, _⟩ => show win0_5.index t (1 : Fin 2) * 131072 + 1 * q.val = t.val * 131072 + q.val; omega
  show msg (wend (V c main_arg3 (((cfg0.win 0).blk t).view.emb (ix1 q))) * ((131072 / 21903795 : ℝ) : EReal))
      (V c main_arg3 (((cfg0.win 0).blk t).view.emb (ix1 q))) (V c main_v24 (((cfg0.win 1).blk t).view.emb (ix2 p q)))
      (V c main_v9 (((cfg0.win 2).blk t).view.emb (ix1 q))) (V c main_v16 (((cfg0.win 3).blk t).view.emb (ix1 q)))
      (V c main_v23 (((cfg0.win 4).blk t).view.emb (ix1 q)))
    = G (V c main_arg3) (V c main_v24) (V c main_v9) (V c main_v16) (V c main_v23) (((cfg0.win 5).blk t).view.emb (ix2 p q))
  rw [h0, h1, h2, h3, h4, h5]
  rfl

/-- An index of the output array is in point t's block iff each coordinate is in the block's range on its axis. -/
theorem mem_blk (t : Fin cfg0.N) (i : S2x8388608.Idx) :
    i ∈ ((cfg0.win 5).blk t).view.set ↔ ∀ a : Fin 2, win0_5.index t a * S2x131072.size a ≤ (i a).val
      ∧ (i a).val < win0_5.index t a * S2x131072.size a + S2x131072.size a := by
  show i ∈ ((View.whole main_v25).slice (win0_5.rect t)).set ↔ _
  rw [View.set_slice_whole, Rect.mem_set_unit]
  exact Iff.rfl

/-- Every index of the output array is in the block of the point that holds its column. -/
theorem cover (i : S2x8388608.Idx) :
    ∃ t : Fin cfg0.N, (cfg0.win 5).flush t = true ∧ i ∈ ((cfg0.win 5).blk t).view.set := by
  have hi0 : (i 0).val < 2 := (i 0).isLt
  have hi1 : (i 1).val < 8388608 := (i 1).isLt
  have hN : (i 1).val / 131072 < cfg0.N := lt_of_lt_of_eq (by omega : (i 1).val / 131072 < 64) N_0.symm
  obtain ⟨e0, e1, e2, e3, e4, e5, e6, e7⟩ := idx_facts ⟨(i 1).val / 131072, hN⟩
  have e7' : win0_5.index ⟨(i 1).val / 131072, hN⟩ (1 : Fin 2) = (i 1).val / 131072 := e7
  refine ⟨⟨(i 1).val / 131072, hN⟩, flush0_5 _, ?_⟩
  rw [mem_blk]
  intro a
  match a with
  | ⟨0, _⟩ => show win0_5.index ⟨(i 1).val / 131072, hN⟩ (0 : Fin 2) * 2 ≤ (i 0).val ∧ (i 0).val < win0_5.index ⟨(i 1).val / 131072, hN⟩ (0 : Fin 2) * 2 + 2; omega
  | ⟨1, _⟩ => show win0_5.index ⟨(i 1).val / 131072, hN⟩ (1 : Fin 2) * 131072 ≤ (i 1).val ∧ (i 1).val < win0_5.index ⟨(i 1).val / 131072, hN⟩ (1 : Fin 2) * 131072 + 131072; omega

/-- The output array after the launch, from whatever contents V the launch finds: the array of messages. -/
theorem final (c : Dev nD) :
    (dat0 V c).arrAt 5 cfg0.N = G (V c main_arg3) (V c main_v24) (V c main_v9) (V c main_v16) (V c main_v23) :=
  (dat0 V c).arrAt_eq_of_cover 5 _ (fun t _ => flushed_eq V c t) cover

end Cert.KernelRegion0

end
-- ==== Proof.KernelRegion1.lean ====
/-
  The second launch's output array. The grid has 4 points; point t loads lanes [t·131072, (t+1)·131072) of the
  boundary radial distances, of the two gathered densities and of the gathered volumes, and the 2 × 131072 block
  of the transposed, negated boundary directions at columns [t·131072, (t+1)·131072), and writes back the block
  of the output at the same columns. So the output array, 2 × 524288, ends holding at (c, e) the message of
  boundary edge e with direction component c: every index lies in exactly the block of point e / 131072.
-/
import proofs.«159046_j47021301957201_2_alg».proof.Proof.Gen.KernelIdeal.Frame
import proofs.«159046_j47021301957201_2_alg».proof.Proof.KernelBody
import Idealize.ShloMosaic.Lib.Pipeline.Value

set_option maxRecDepth 16384

noncomputable section

namespace Cert.KernelRegion1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Msg Cert.KernelBody

/-- The array of messages over 524288 boundary edges and two direction components, from the five arrays the launch reads. -/
def G (r : S524288.Idx → EReal) (dT : S2x524288.Idx → EReal) (da db mb : S524288.Idx → EReal) :
    S2x524288.Idx → EReal := fun i =>
  msg (wend (r (ix1 (i 1))) * ((131072 / 21903795 : ℝ) : EReal)) (r (ix1 (i 1))) (dT (ix2 (i 0) (i 1)))
    (da (ix1 (i 1))) (db (ix1 (i 1))) (mb (ix1 (i 1)))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: every lane window is at block t, every 2-row window at block (0, t). -/
theorem idx_facts : ∀ t : Fin cfg1.N, win1_0.index t (0 : Fin 1) = t.val
    ∧ win1_1.index t (0 : Fin 2) = 0 ∧ win1_1.index t (1 : Fin 2) = t.val
    ∧ win1_2.index t (0 : Fin 1) = t.val ∧ win1_3.index t (0 : Fin 1) = t.val ∧ win1_4.index t (0 : Fin 1) = t.val
    ∧ win1_5.index t (0 : Fin 2) = 0 ∧ win1_5.index t (1 : Fin 2) = t.val :=
  (by decide +kernel : ∀ t : Fin grid1.N, _)

variable (V : (c : Dev nD) → (b : Ref sig .tc) → Buf (Elt Ideal) ((c : Thread nD τ).loc b))

/-- What point t writes back is block t of the array of messages of the launch's five input arrays. -/
theorem flushed_eq (c : Dev nD) (t : Fin cfg1.N) :
    (dat1 V c).flushed 5 t = ((cfg1.win 5).blk t).view.read (Elt Ideal)
      (G (V c main_arg7) (V c main_v52) (V c main_v36) (V c main_v43) (V c main_v50)) := by
  show (cfg1.win 5).cut (grid1.coords t) ((dat1 V c).after 5 t) = _
  rw [after1_5]
  unfold out1_5
  rw [View.canon_unit_zero hz2]
  simp only [View.ld_unit_zero (S := S131072) hz1, View.ld_unit_zero (S := S2x131072) hz2]
  obtain ⟨e0, e1, e2, e3, e4, e5, e6, e7⟩ := idx_facts t
  have ht : t.val < 4 := lt_of_lt_of_eq t.isLt N_1
  funext j
  obtain ⟨p, q, rfl⟩ : ∃ (p : Fin 2) (q : Fin 131072), j = ix2 p q := ⟨j 0, j 1, eq_ix2 j⟩
  refine (pay1_apply (iblk1 V c 0 t) (iblk1 V c 2 t) (iblk1 V c 3 t) (iblk1 V c 4 t) (iblk1 V c 1 t) p q).trans ?_
  have hq : q.val < 131072 := q.isLt
  have he : t.val * 131072 + q.val < 524288 := by omega
  have h0 : ((cfg1.win 0).blk t).view.emb (ix1 q) = ix1 (⟨t.val * 131072 + q.val, he⟩ : Fin 524288) := by
    funext a; apply Fin.ext
    match a with
    | ⟨0, _⟩ => show win1_0.index t (0 : Fin 1) * 131072 + 1 * q.val = t.val * 131072 + q.val; omega
  have h2 : ((cfg1.win 2).blk t).view.emb (ix1 q) = ix1 (⟨t.val * 131072 + q.val, he⟩ : Fin 524288) := by
    funext a; apply Fin.ext
    match a with
    | ⟨0, _⟩ => show win1_2.index t (0 : Fin 1) * 131072 + 1 * q.val = t.val * 131072 + q.val; omega
  have h3 : ((cfg1.win 3).blk t).view.emb (ix1 q) = ix1 (⟨t.val * 131072 + q.val, he⟩ : Fin 524288) := by
    funext a; apply Fin.ext
    match a with
    | ⟨0, _⟩ => show win1_3.index t (0 : Fin 1) * 131072 + 1 * q.val = t.val * 131072 + q.val; omega
  have h4 : ((cfg1.win 4).blk t).view.emb (ix1 q) = ix1 (⟨t.val * 131072 + q.val, he⟩ : Fin 524288) := by
    funext a; apply Fin.ext
    match a with
    | ⟨0, _⟩ => show win1_4.index t (0 : Fin 1) * 131072 + 1 * q.val = t.val * 131072 + q.val; omega
  have h1 : ((cfg1.win 1).blk t).view.emb (ix2 p q) = ix2 p (⟨t.val * 131072 + q.val, he⟩ : Fin 524288) := by
    funext a; apply Fin.ext
    match a with
    | ⟨0, _⟩ => show win1_1.index t (0 : Fin 2) * 2 + 1 * p.val = p.val; omega
    | ⟨1, _⟩ => show win1_1.index t (1 : Fin 2) * 131072 + 1 * q.val = t.val * 131072 + q.val; omega
  have h5 : ((cfg1.win 5).blk t).view.emb (ix2 p q) = ix2 p (⟨t.val * 131072 + q.val, he⟩ : Fin 524288) := by
    funext a; apply Fin.ext
    match a with
    | ⟨0, _⟩ => show win1_5.index t (0 : Fin 2) * 2 + 1 * p.val = p.val; omega
    | ⟨1, _⟩ => show win1_5.index t (1 : Fin 2) * 131072 + 1 * q.val = t.val * 131072 + q.val; omega
  show msg (wend (V c main_arg7 (((cfg1.win 0).blk t).view.emb (ix1 q))) * ((131072 / 21903795 : ℝ) : EReal))
      (V c main_arg7 (((cfg1.win 0).blk t).view.emb (ix1 q))) (V c main_v52 (((cfg1.win 1).blk t).view.emb (ix2 p q)))
      (V c main_v36 (((cfg1.win 2).blk t).view.emb (ix1 q))) (V c main_v43 (((cfg1.win 3).blk t).view.emb (ix1 q)))
      (V c main_v50 (((cfg1.win 4).blk t).view.emb (ix1 q)))
    = G (V c main_arg7) (V c main_v52) (V c main_v36) (V c main_v43) (V c main_v50) (((cfg1.win 5).blk t).view.emb (ix2 p q))
  rw [h0, h1, h2, h3, h4, h5]
  rfl

/-- An index of the output array is in point t's block iff each coordinate is in the block's range on its axis. -/
theorem mem_blk (t : Fin cfg1.N) (i : S2x524288.Idx) :
    i ∈ ((cfg1.win 5).blk t).view.set ↔ ∀ a : Fin 2, win1_5.index t a * S2x131072.size a ≤ (i a).val
      ∧ (i a).val < win1_5.index t a * S2x131072.size a + S2x131072.size a := by
  show i ∈ ((View.whole main_v53).slice (win1_5.rect t)).set ↔ _
  rw [View.set_slice_whole, Rect.mem_set_unit]
  exact Iff.rfl

/-- Every index of the output array is in the block of the point that holds its column. -/
theorem cover (i : S2x524288.Idx) :
    ∃ t : Fin cfg1.N, (cfg1.win 5).flush t = true ∧ i ∈ ((cfg1.win 5).blk t).view.set := by
  have hi0 : (i 0).val < 2 := (i 0).isLt
  have hi1 : (i 1).val < 524288 := (i 1).isLt
  have hN : (i 1).val / 131072 < cfg1.N := lt_of_lt_of_eq (by omega : (i 1).val / 131072 < 4) N_1.symm
  obtain ⟨e0, e1, e2, e3, e4, e5, e6, e7⟩ := idx_facts ⟨(i 1).val / 131072, hN⟩
  have e7' : win1_5.index ⟨(i 1).val / 131072, hN⟩ (1 : Fin 2) = (i 1).val / 131072 := e7
  refine ⟨⟨(i 1).val / 131072, hN⟩, flush1_5 _, ?_⟩
  rw [mem_blk]
  intro a
  match a with
  | ⟨0, _⟩ => show win1_5.index ⟨(i 1).val / 131072, hN⟩ (0 : Fin 2) * 2 ≤ (i 0).val ∧ (i 0).val < win1_5.index ⟨(i 1).val / 131072, hN⟩ (0 : Fin 2) * 2 + 2; omega
  | ⟨1, _⟩ => show win1_5.index ⟨(i 1).val / 131072, hN⟩ (1 : Fin 2) * 131072 ≤ (i 1).val ∧ (i 1).val < win1_5.index ⟨(i 1).val / 131072, hN⟩ (1 : Fin 2) * 131072 + 131072; omega

/-- The output array after the launch, from whatever contents V the launch finds: the array of messages. -/
theorem final (c : Dev nD) :
    (dat1 V c).arrAt 5 cfg1.N = G (V c main_arg7) (V c main_v52) (V c main_v36) (V c main_v43) (V c main_v50) :=
  (dat1 V c).arrAt_eq_of_cover 5 _ (fun t _ => flushed_eq V c t) cover

end Cert.KernelRegion1

end
-- ==== Proof.KernelRun.lean ====
/-
  The kernel program's result, read back through its run. Its @main is: the velocity norms and their maximum
  (the Mach number), the three gathers and the transpose that feed the first launch; the launch; the transpose
  and segment sum of its output, the three gathers, the negation and the transpose that feed the second launch;
  the launch; the second segment sum, the sum of the two and the final scale. Each stretch of host operations is
  read once, over arbitrary buffer contents, as its operations' composed term; each launch's output array is
  the array of messages of its five input arrays; composing the six gives the result as one term of the thirteen
  argument arrays.
-/
import proofs.«159046_j47021301957201_2_alg».proof.Proof.KernelFrameResult
import proofs.«159046_j47021301957201_2_alg».proof.Proof.KernelRegion0
import proofs.«159046_j47021301957201_2_alg».proof.Proof.KernelRegion1
import Idealize.ShloMosaic.Lib.StableHlo.Run

set_option maxRecDepth 16384

noncomputable section

namespace Cert.KernelRun

open Idealize.ShloMosaic Idealize.ShloMosaic.TcCoe Idealize.ShloMosaic.ValueIdx Idealize.SL.Sem Idealize.ShloMosaic.StableHlo
open Cert.KernelIdeal Cert.KernelIdeal.Gen Cert.Msg

/-! ## The host operations' terms -/

/-- A gather's index column over the fluid edges: a negative entry wrapped by the table's length. -/
def idxE (n : BitVec 32) (ix : IVec S8388608 32) : IVec S8388608x1 32 :=
  broadcastInDim S8388608x1 ![0] bcast_S8388608_S8388608x1_0
    (select (cmpi .slt ix (broadcastInDim S8388608 ![] bcast_S_S8388608 (constantI S_ 32 0#32)))
      (addi ix (broadcastInDim S8388608 ![] bcast_S_S8388608 (constantI S_ 32 n))) ix)
/-- The same over the boundary edges. -/
def idxB (n : BitVec 32) (ix : IVec S524288 32) : IVec S524288x1 32 :=
  broadcastInDim S524288x1 ![0] bcast_S524288_S524288x1_0
    (select (cmpi .slt ix (broadcastInDim S524288 ![] bcast_S_S524288 (constantI S_ 32 0#32)))
      (addi ix (broadcastInDim S524288 ![] bcast_S_S524288 (constantI S_ 32 n))) ix)
/-- A fluid table gathered at the fluid edges' indices. -/
def gatE (tbl : FVec Ideal S262144 .f32) (ix : IVec S8388608 32) : FVec Ideal S8388608 .f32 :=
  Host.gather gather_S262144_S8388608x1_S8388608_n_0_n_n_0_1_1 tbl (idxE 262144#32 ix)
/-- A fluid table gathered at the boundary edges' fluid indices. -/
def gatF (tbl : FVec Ideal S262144 .f32) (ix : IVec S524288 32) : FVec Ideal S524288 .f32 :=
  Host.gather gather_S262144_S524288x1_S524288_n_0_n_n_0_1_1 tbl (idxB 262144#32 ix)
/-- A boundary table gathered at the boundary edges' boundary indices. -/
def gatB (tbl : FVec Ideal S16384 .f32) (ix : IVec S524288 32) : FVec Ideal S524288 .f32 :=
  Host.gather gather_S16384_S524288x1_S524288_n_0_n_n_0_1_1 tbl (idxB 16384#32 ix)
/-- The Mach number: the largest velocity norm over the reference speed. -/
def mach (v : FVec Ideal S262144x2 .f32) : FVec Ideal S_ .f32 :=
  Host.divf (Host.reduce FloatOps.maximumf
      (Host.sqrt (Host.reduceAdd (mulf v v) (constant S_ .f32 0x00000000#32) reducesTo_S262144x2_S262144_d1 h_S_))
      (constant S_ .f32 0xFF800000#32) reducesTo_S262144_S_d0 h_S_) (constant S_ .f32 0x41C216B1#32)
/-- The segment sum of the fluid edges' messages into the particles. -/
def segE (ix : IVec S8388608 32) (t : FVec Ideal S8388608x2 .f32) : FVec Ideal S262144x2 .f32 :=
  Host.scatterAdd scatter_S262144x2_S8388608x1_S8388608x2_1_0_0_1
    (broadcastInDim S262144x2 ![] bcast_S_S262144x2 (constant S_ .f32 0x00000000#32))
    (broadcastInDim S8388608x1 ![0] bcast_S8388608_S8388608x1_0 ix) t
/-- The segment sum of the boundary edges' messages into the particles. -/
def segB (ix : IVec S524288 32) (t : FVec Ideal S524288x2 .f32) : FVec Ideal S262144x2 .f32 :=
  Host.scatterAdd scatter_S262144x2_S524288x1_S524288x2_1_0_0_1
    (broadcastInDim S262144x2 ![] bcast_S_S262144x2 (constant S_ .f32 0x00000000#32))
    (broadcastInDim S524288x1 ![0] bcast_S524288_S524288x1_0 ix) t
/-- The scale (−3/2 · Ma) · 4h², spread over the particles. -/
def scaleOf (ma : FVec Ideal S_ .f32) : FVec Ideal S262144x2 .f32 :=
  broadcastInDim S262144x2 ![] bcast_S_S262144x2
    (mulf (mulf (constant S_ .f32 0xBFC00000#32) ma) (constant S_ .f32 0x3C23D70A#32))

/-! ## Each stretch, over arbitrary contents -/

variable (W : Valuation τ sig (Elt Ideal))

theorem tail_v62 : after hostOps2 W (Proc.devRef .tc main_v62)
    = mulf (scaleOf (W (Proc.devRef .tc main_v2)))
        (addf (W (Proc.devRef .tc main_v29))
          (segB (W (Proc.devRef .tc main_arg12))
            (transpose S524288x2 [1, 0] (W (Proc.devRef .tc main_v53)) transposes_S2x524288_S524288x2_1_0))) := by
  after_results; rfl

set_option maxHeartbeats 4000000 in
theorem mid_v29 : after hostOps1 W (Proc.devRef .tc main_v29)
    = segE (W (Proc.devRef .tc main_arg9)) (transpose S8388608x2 [1, 0] (W (Proc.devRef .tc main_v25)) transposes_S2x8388608_S8388608x2_1_0) := by
  after_results_simp <;> rfl
set_option maxHeartbeats 4000000 in
theorem mid_v36 : after hostOps1 W (Proc.devRef .tc main_v36)
    = gatF (W (Proc.devRef .tc main_arg2)) (W (Proc.devRef .tc main_arg12)) := by
  after_results_simp <;> rfl
set_option maxHeartbeats 4000000 in
theorem mid_v43 : after hostOps1 W (Proc.devRef .tc main_v43)
    = gatB (W (Proc.devRef .tc main_arg6)) (W (Proc.devRef .tc main_arg11)) := by
  after_results_simp <;> rfl
set_option maxHeartbeats 4000000 in
theorem mid_v50 : after hostOps1 W (Proc.devRef .tc main_v50)
    = gatB (W (Proc.devRef .tc main_arg5)) (W (Proc.devRef .tc main_arg11)) := by
  after_results_simp <;> rfl
set_option maxHeartbeats 4000000 in
theorem mid_v52 : after hostOps1 W (Proc.devRef .tc main_v52)
    = transpose S2x524288 [1, 0] (Host.negf (F := Ideal) (s := S524288x2) (φ := .f32) (W (Proc.devRef .tc main_arg8) : FVec Ideal S524288x2 .f32)) transposes_S524288x2_S2x524288_1_0 := by
  after_results_simp <;> rfl
theorem mid_arg7 : after hostOps1 W (Proc.devRef .tc main_arg7) = W (Proc.devRef .tc main_arg7) := by
  after_results
theorem mid_arg12 : after hostOps1 W (Proc.devRef .tc main_arg12) = W (Proc.devRef .tc main_arg12) := by
  after_results
set_option maxHeartbeats 4000000 in
theorem mid_v2 : after hostOps1 W (Proc.devRef .tc main_v2) = W (Proc.devRef .tc main_v2) := by
  after_results
theorem pre_v2 : after hostOps0_1 (after hostOps0 W) (Proc.devRef .tc main_v2)
    = mach (W (Proc.devRef .tc main_arg0)) := by
  after_results_simp <;> rfl
set_option maxHeartbeats 4000000 in
theorem pre_v9 : after hostOps0_1 (after hostOps0 W) (Proc.devRef .tc main_v9)
    = gatE (W (Proc.devRef .tc main_arg2)) (W (Proc.devRef .tc main_arg9)) := by
  after_results_simp <;> rfl
set_option maxHeartbeats 4000000 in
theorem pre_v16 : after hostOps0_1 (after hostOps0 W) (Proc.devRef .tc main_v16)
    = gatE (W (Proc.devRef .tc main_arg2)) (W (Proc.devRef .tc main_arg10)) := by
  after_results_simp <;> rfl
set_option maxHeartbeats 4000000 in
theorem pre_v23 : after hostOps0_1 (after hostOps0 W) (Proc.devRef .tc main_v23)
    = gatE (W (Proc.devRef .tc main_arg1)) (W (Proc.devRef .tc main_arg10)) := by
  after_results_simp <;> rfl
set_option maxHeartbeats 4000000 in
theorem pre_v24 : after hostOps0_1 (after hostOps0 W) (Proc.devRef .tc main_v24)
    = transpose S2x8388608 [1, 0] (W (Proc.devRef .tc main_arg4)) transposes_S8388608x2_S2x8388608_1_0 := by
  after_results_simp <;> rfl
theorem pre_arg3 : after hostOps0_1 (after hostOps0 W) (Proc.devRef .tc main_arg3) = W (Proc.devRef .tc main_arg3) := by
  after_results
theorem pre_arg7 : after hostOps0_1 (after hostOps0 W) (Proc.devRef .tc main_arg7) = W (Proc.devRef .tc main_arg7) := by
  after_results
theorem pre_arg8 : after hostOps0_1 (after hostOps0 W) (Proc.devRef .tc main_arg8) = W (Proc.devRef .tc main_arg8) := by
  after_results
theorem pre_arg2 : after hostOps0_1 (after hostOps0 W) (Proc.devRef .tc main_arg2) = W (Proc.devRef .tc main_arg2) := by
  after_results
theorem pre_arg12 : after hostOps0_1 (after hostOps0 W) (Proc.devRef .tc main_arg12) = W (Proc.devRef .tc main_arg12) := by
  after_results
theorem pre_arg6 : after hostOps0_1 (after hostOps0 W) (Proc.devRef .tc main_arg6) = W (Proc.devRef .tc main_arg6) := by
  after_results
theorem pre_arg11 : after hostOps0_1 (after hostOps0 W) (Proc.devRef .tc main_arg11) = W (Proc.devRef .tc main_arg11) := by
  after_results
theorem pre_arg5 : after hostOps0_1 (after hostOps0 W) (Proc.devRef .tc main_arg5) = W (Proc.devRef .tc main_arg5) := by
  after_results
theorem pre_arg9 : after hostOps0_1 (after hostOps0 W) (Proc.devRef .tc main_arg9) = W (Proc.devRef .tc main_arg9) := by
  after_results

/-! ## The run, composed -/

variable (m : (ℓ : Loc nD τ sig) → Buf (Elt Ideal) ℓ) (ρ : Dev nD → PrngReg)

/-- The result buffer after the run, as one term of the argument arrays. -/
theorem result_eq (c : Dev nD) : W6 m ρ c (Proc.devRef .tc main_v62)
    = mulf (scaleOf (mach (m ((c.tc : Thread nD τ).loc main_arg0))))
        (addf (segE (m ((c.tc : Thread nD τ).loc main_arg9)) (transpose S8388608x2 [1, 0] (KernelRegion0.G (m ((c.tc : Thread nD τ).loc main_arg3)) (transpose S2x8388608 [1, 0] (m ((c.tc : Thread nD τ).loc main_arg4)) transposes_S8388608x2_S2x8388608_1_0) (gatE (m ((c.tc : Thread nD τ).loc main_arg2)) (m ((c.tc : Thread nD τ).loc main_arg9))) (gatE (m ((c.tc : Thread nD τ).loc main_arg2)) (m ((c.tc : Thread nD τ).loc main_arg10))) (gatE (m ((c.tc : Thread nD τ).loc main_arg1)) (m ((c.tc : Thread nD τ).loc main_arg10)))) transposes_S2x8388608_S8388608x2_1_0))
          (segB (m ((c.tc : Thread nD τ).loc main_arg12)) (transpose S524288x2 [1, 0] (KernelRegion1.G (m ((c.tc : Thread nD τ).loc main_arg7)) (transpose S2x524288 [1, 0] (Host.negf (F := Ideal) (s := S524288x2) (φ := .f32) (m ((c.tc : Thread nD τ).loc main_arg8) : FVec Ideal S524288x2 .f32)) transposes_S524288x2_S2x524288_1_0) (gatF (m ((c.tc : Thread nD τ).loc main_arg2)) (m ((c.tc : Thread nD τ).loc main_arg12))) (gatB (m ((c.tc : Thread nD τ).loc main_arg6)) (m ((c.tc : Thread nD τ).loc main_arg11))) (gatB (m ((c.tc : Thread nD τ).loc main_arg5)) (m ((c.tc : Thread nD τ).loc main_arg11)))) transposes_S2x524288_S524288x2_1_0))) := by
  have h2_v2 : W2 m ρ c (Proc.devRef .tc main_v2) = mach (m ((c.tc : Thread nD τ).loc main_arg0)) := pre_v2 (W0 m ρ c)
  have h2_v9 : W2 m ρ c (Proc.devRef .tc main_v9) = gatE (m ((c.tc : Thread nD τ).loc main_arg2)) (m ((c.tc : Thread nD τ).loc main_arg9)) := pre_v9 (W0 m ρ c)
  have h2_v16 : W2 m ρ c (Proc.devRef .tc main_v16) = gatE (m ((c.tc : Thread nD τ).loc main_arg2)) (m ((c.tc : Thread nD τ).loc main_arg10)) := pre_v16 (W0 m ρ c)
  have h2_v23 : W2 m ρ c (Proc.devRef .tc main_v23) = gatE (m ((c.tc : Thread nD τ).loc main_arg1)) (m ((c.tc : Thread nD τ).loc main_arg10)) := pre_v23 (W0 m ρ c)
  have h2_v24 : W2 m ρ c (Proc.devRef .tc main_v24) = transpose S2x8388608 [1, 0] (m ((c.tc : Thread nD τ).loc main_arg4)) transposes_S8388608x2_S2x8388608_1_0 := pre_v24 (W0 m ρ c)
  have h2_arg3 : W2 m ρ c (Proc.devRef .tc main_arg3) = (m ((c.tc : Thread nD τ).loc main_arg3)) := pre_arg3 (W0 m ρ c)
  have h2_arg7 : W2 m ρ c (Proc.devRef .tc main_arg7) = (m ((c.tc : Thread nD τ).loc main_arg7)) := pre_arg7 (W0 m ρ c)
  have h2_arg8 : W2 m ρ c (Proc.devRef .tc main_arg8) = (m ((c.tc : Thread nD τ).loc main_arg8)) := pre_arg8 (W0 m ρ c)
  have h2_arg2 : W2 m ρ c (Proc.devRef .tc main_arg2) = (m ((c.tc : Thread nD τ).loc main_arg2)) := pre_arg2 (W0 m ρ c)
  have h2_arg12 : W2 m ρ c (Proc.devRef .tc main_arg12) = (m ((c.tc : Thread nD τ).loc main_arg12)) := pre_arg12 (W0 m ρ c)
  have h2_arg6 : W2 m ρ c (Proc.devRef .tc main_arg6) = (m ((c.tc : Thread nD τ).loc main_arg6)) := pre_arg6 (W0 m ρ c)
  have h2_arg11 : W2 m ρ c (Proc.devRef .tc main_arg11) = (m ((c.tc : Thread nD τ).loc main_arg11)) := pre_arg11 (W0 m ρ c)
  have h2_arg5 : W2 m ρ c (Proc.devRef .tc main_arg5) = (m ((c.tc : Thread nD τ).loc main_arg5)) := pre_arg5 (W0 m ρ c)
  have h2_arg9 : W2 m ρ c (Proc.devRef .tc main_arg9) = (m ((c.tc : Thread nD τ).loc main_arg9)) := pre_arg9 (W0 m ρ c)
  have h3_v2 : W3 m ρ c (Proc.devRef .tc main_v2) = mach (m ((c.tc : Thread nD τ).loc main_arg0)) := (W3_of_ne m ρ c main_v2 (by decide)).trans h2_v2
  have h3_arg9 : W3 m ρ c (Proc.devRef .tc main_arg9) = (m ((c.tc : Thread nD τ).loc main_arg9)) := (W3_of_ne m ρ c main_arg9 (by decide)).trans h2_arg9
  have h3_arg12 : W3 m ρ c (Proc.devRef .tc main_arg12) = (m ((c.tc : Thread nD τ).loc main_arg12)) := (W3_of_ne m ρ c main_arg12 (by decide)).trans h2_arg12
  have h3_arg7 : W3 m ρ c (Proc.devRef .tc main_arg7) = (m ((c.tc : Thread nD τ).loc main_arg7)) := (W3_of_ne m ρ c main_arg7 (by decide)).trans h2_arg7
  have h3_arg8 : W3 m ρ c (Proc.devRef .tc main_arg8) = (m ((c.tc : Thread nD τ).loc main_arg8)) := (W3_of_ne m ρ c main_arg8 (by decide)).trans h2_arg8
  have h3_arg2 : W3 m ρ c (Proc.devRef .tc main_arg2) = (m ((c.tc : Thread nD τ).loc main_arg2)) := (W3_of_ne m ρ c main_arg2 (by decide)).trans h2_arg2
  have h3_arg6 : W3 m ρ c (Proc.devRef .tc main_arg6) = (m ((c.tc : Thread nD τ).loc main_arg6)) := (W3_of_ne m ρ c main_arg6 (by decide)).trans h2_arg6
  have h3_arg11 : W3 m ρ c (Proc.devRef .tc main_arg11) = (m ((c.tc : Thread nD τ).loc main_arg11)) := (W3_of_ne m ρ c main_arg11 (by decide)).trans h2_arg11
  have h3_arg5 : W3 m ρ c (Proc.devRef .tc main_arg5) = (m ((c.tc : Thread nD τ).loc main_arg5)) := (W3_of_ne m ρ c main_arg5 (by decide)).trans h2_arg5
  have h3_v25 : W3 m ρ c (Proc.devRef .tc main_v25) = KernelRegion0.G (m ((c.tc : Thread nD τ).loc main_arg3)) (transpose S2x8388608 [1, 0] (m ((c.tc : Thread nD τ).loc main_arg4)) transposes_S8388608x2_S2x8388608_1_0) (gatE (m ((c.tc : Thread nD τ).loc main_arg2)) (m ((c.tc : Thread nD τ).loc main_arg9))) (gatE (m ((c.tc : Thread nD τ).loc main_arg2)) (m ((c.tc : Thread nD τ).loc main_arg10))) (gatE (m ((c.tc : Thread nD τ).loc main_arg1)) (m ((c.tc : Thread nD τ).loc main_arg10))) := by
    refine (W3_arr m ρ c 5).trans ((KernelRegion0.final (V2 m ρ) c).trans ?_)
    show KernelRegion0.G (W2 m ρ c (Proc.devRef .tc main_arg3)) (W2 m ρ c (Proc.devRef .tc main_v24)) (W2 m ρ c (Proc.devRef .tc main_v9)) (W2 m ρ c (Proc.devRef .tc main_v16)) (W2 m ρ c (Proc.devRef .tc main_v23)) = _
    rw [h2_arg3, h2_v24, h2_v9, h2_v16, h2_v23]
  have h4_v29 : W4 m ρ c (Proc.devRef .tc main_v29) = segE (m ((c.tc : Thread nD τ).loc main_arg9)) (transpose S8388608x2 [1, 0] (KernelRegion0.G (m ((c.tc : Thread nD τ).loc main_arg3)) (transpose S2x8388608 [1, 0] (m ((c.tc : Thread nD τ).loc main_arg4)) transposes_S8388608x2_S2x8388608_1_0) (gatE (m ((c.tc : Thread nD τ).loc main_arg2)) (m ((c.tc : Thread nD τ).loc main_arg9))) (gatE (m ((c.tc : Thread nD τ).loc main_arg2)) (m ((c.tc : Thread nD τ).loc main_arg10))) (gatE (m ((c.tc : Thread nD τ).loc main_arg1)) (m ((c.tc : Thread nD τ).loc main_arg10)))) transposes_S2x8388608_S8388608x2_1_0) := by
    refine (mid_v29 (W3 m ρ c)).trans ?_
    rw [h3_arg9, h3_v25]
  have h4_v36 : W4 m ρ c (Proc.devRef .tc main_v36) = gatF (m ((c.tc : Thread nD τ).loc main_arg2)) (m ((c.tc : Thread nD τ).loc main_arg12)) := by
    refine (mid_v36 (W3 m ρ c)).trans ?_
    rw [h3_arg2, h3_arg12]
  have h4_v43 : W4 m ρ c (Proc.devRef .tc main_v43) = gatB (m ((c.tc : Thread nD τ).loc main_arg6)) (m ((c.tc : Thread nD τ).loc main_arg11)) := by
    refine (mid_v43 (W3 m ρ c)).trans ?_
    rw [h3_arg6, h3_arg11]
  have h4_v50 : W4 m ρ c (Proc.devRef .tc main_v50) = gatB (m ((c.tc : Thread nD τ).loc main_arg5)) (m ((c.tc : Thread nD τ).loc main_arg11)) := by
    refine (mid_v50 (W3 m ρ c)).trans ?_
    rw [h3_arg5, h3_arg11]
  have h4_v52 : W4 m ρ c (Proc.devRef .tc main_v52) = transpose S2x524288 [1, 0] (Host.negf (F := Ideal) (s := S524288x2) (φ := .f32) (m ((c.tc : Thread nD τ).loc main_arg8) : FVec Ideal S524288x2 .f32)) transposes_S524288x2_S2x524288_1_0 := by
    refine (mid_v52 (W3 m ρ c)).trans ?_
    rw [h3_arg8]
  have h4_arg7 : W4 m ρ c (Proc.devRef .tc main_arg7) = (m ((c.tc : Thread nD τ).loc main_arg7)) := by
    refine (mid_arg7 (W3 m ρ c)).trans ?_
    rw [h3_arg7]
  have h4_arg12 : W4 m ρ c (Proc.devRef .tc main_arg12) = (m ((c.tc : Thread nD τ).loc main_arg12)) := by
    refine (mid_arg12 (W3 m ρ c)).trans ?_
    rw [h3_arg12]
  have h4_v2 : W4 m ρ c (Proc.devRef .tc main_v2) = mach (m ((c.tc : Thread nD τ).loc main_arg0)) := by
    refine (mid_v2 (W3 m ρ c)).trans ?_
    rw [h3_v2]
  have h5_v2 : W5 m ρ c (Proc.devRef .tc main_v2) = mach (m ((c.tc : Thread nD τ).loc main_arg0)) := (W5_of_ne m ρ c main_v2 (by decide)).trans h4_v2
  have h5_v29 : W5 m ρ c (Proc.devRef .tc main_v29) = segE (m ((c.tc : Thread nD τ).loc main_arg9)) (transpose S8388608x2 [1, 0] (KernelRegion0.G (m ((c.tc : Thread nD τ).loc main_arg3)) (transpose S2x8388608 [1, 0] (m ((c.tc : Thread nD τ).loc main_arg4)) transposes_S8388608x2_S2x8388608_1_0) (gatE (m ((c.tc : Thread nD τ).loc main_arg2)) (m ((c.tc : Thread nD τ).loc main_arg9))) (gatE (m ((c.tc : Thread nD τ).loc main_arg2)) (m ((c.tc : Thread nD τ).loc main_arg10))) (gatE (m ((c.tc : Thread nD τ).loc main_arg1)) (m ((c.tc : Thread nD τ).loc main_arg10)))) transposes_S2x8388608_S8388608x2_1_0) := (W5_of_ne m ρ c main_v29 (by decide)).trans h4_v29
  have h5_arg12 : W5 m ρ c (Proc.devRef .tc main_arg12) = (m ((c.tc : Thread nD τ).loc main_arg12)) := (W5_of_ne m ρ c main_arg12 (by decide)).trans h4_arg12
  have h5_v53 : W5 m ρ c (Proc.devRef .tc main_v53) = KernelRegion1.G (m ((c.tc : Thread nD τ).loc main_arg7)) (transpose S2x524288 [1, 0] (Host.negf (F := Ideal) (s := S524288x2) (φ := .f32) (m ((c.tc : Thread nD τ).loc main_arg8) : FVec Ideal S524288x2 .f32)) transposes_S524288x2_S2x524288_1_0) (gatF (m ((c.tc : Thread nD τ).loc main_arg2)) (m ((c.tc : Thread nD τ).loc main_arg12))) (gatB (m ((c.tc : Thread nD τ).loc main_arg6)) (m ((c.tc : Thread nD τ).loc main_arg11))) (gatB (m ((c.tc : Thread nD τ).loc main_arg5)) (m ((c.tc : Thread nD τ).loc main_arg11))) := by
    refine (W5_arr m ρ c 5).trans ((KernelRegion1.final (V4 m ρ) c).trans ?_)
    show KernelRegion1.G (W4 m ρ c (Proc.devRef .tc main_arg7)) (W4 m ρ c (Proc.devRef .tc main_v52)) (W4 m ρ c (Proc.devRef .tc main_v36)) (W4 m ρ c (Proc.devRef .tc main_v43)) (W4 m ρ c (Proc.devRef .tc main_v50)) = _
    rw [h4_arg7, h4_v52, h4_v36, h4_v43, h4_v50]
  refine (tail_v62 (W5 m ρ c)).trans ?_
  rw [h5_v2, h5_v29, h5_arg12, h5_v53]

end Cert.KernelRun

end
-- ==== Proof.PreFacts.lean ====
import proofs.«159046_j47021301957201_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost
import Mathlib.Data.Finset.Fold
noncomputable section
namespace Cert.PreFacts
open Idealize.ShloMosaic Cert.Pre_finite_inputs
open scoped BigOperators

/-- an extended real that is a real number -/
def IsReal (x : EReal) : Prop := ∃ r : ℝ, x = (r : EReal)

/-- the rank-zero shape has one index -/
instance : Subsingleton S_.Idx := ⟨fun a b => funext fun d => d.elim0⟩

/-- the f32 pattern of +∞ denotes ⊤ -/
theorem ofBits_pos_inf : Ideal.ofBits .f32 0x7F800000#32 = ⊤ := by simp [Ideal.ofBits, Ideal.ieee]
/-- the f32 pattern of −∞ denotes ⊥ -/
theorem ofBits_neg_inf : Ideal.ofBits .f32 0xFF800000#32 = ⊥ := by simp [Ideal.ofBits, Ideal.ieee]

/-- a one-bit word made from a Boolean is 1 exactly when the Boolean is true -/
theorem ofBool_eq_one (b : Bool) : BitVec.ofBool b = 1#1 ↔ b = true := by cases b <;> decide

/-- an extended real that is neither ⊥ nor ⊤ is a real -/
theorem isReal_of_ne {x : EReal} (hb : x ≠ ⊥) (ht : x ≠ ⊤) : IsReal x := ⟨x.toReal, (EReal.coe_toReal ht hb).symm⟩

/-- |x| < +∞, with |x| = max x (−x), says that x is a real: at ⊥ and at ⊤ the maximum is ⊤ -/
theorem isReal_of_abs_lt (x : EReal) (h : Ideal.cmp .olt (max x (-x)) (Ideal.ofBits .f32 0x7F800000#32) = 1#1) : IsReal x := by
  rw [ofBits_pos_inf] at h
  unfold Ideal.cmp at h
  rw [ofBool_eq_one] at h
  have h' : max x (-x) < ⊤ := of_decide_eq_true h
  induction x using EReal.rec with
  | bot => simp at h'
  | top => simp at h'
  | coe r => exact ⟨r, rfl⟩

/-- the conjunction over all entries of |x| < +∞, over any shape: every entry is a real -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32)))
          (constantI S_ 1 1#1) hr hu ValueIdx.ix0 = 1#1) (i : s.Idx) : IsReal (x i) :=
  isReal_of_abs_lt (x i) (Host.reduce_andi_all _ _ hr hu _ e i)

/-- the conjunction over all entries of v ≠ 0, over any shape: every entry is not zero -/
theorem all_ne_zero {s : Shape} {axes : List (Fin s.rank)} (v : FVec Ideal s .f32) (hb : S_.BroadcastsInDim s (![] : Fin 0 → Fin s.rank))
    (hr : s.ReducesTo axes S_) (hu : 0 < S_.numel)
    (e : Host.reduce IntOp.andi (cmpf .une v (broadcastInDim s ![] hb (constant S_ .f32 0x00000000#32)))
          (constantI S_ 1 1#1) hr hu ValueIdx.ix0 = 1#1) (i : s.Idx) : v i ≠ 0 := by
  have h := Host.reduce_andi_all _ _ hr hu _ e i
  have h2 : Ideal.cmp .une (v i) (Ideal.ofBits .f32 0x00000000#32) = 1#1 := h
  rw [Ideal.ofBits_zero_f32] at h2
  unfold Ideal.cmp at h2
  rw [ofBool_eq_one] at h2
  exact of_decide_eq_true h2

section Pre
variable [Cert.Pre_finite_inputs.Facts]
open Cert.Pre_finite_inputs.Facts

/-- the first denominator: density gathered at i (wrapped by 262144 when negative) plus density gathered at j -/
def denomFluid (a2 : FVec Ideal S262144 .f32) (a9 a10 : IVec S8388608 32) : FVec Ideal S8388608 .f32 :=
  addf (Host.gather gather_S262144_S8388608x1_S8388608_n_0_n_n_0_1_1 a2 (broadcastInDim S8388608x1 ![0] bcast_S8388608_S8388608x1_0 (select (cmpi .slt a9 (broadcastInDim S8388608 ![] bcast_S_S8388608 (constantI S_ 32 0#32))) (addi a9 (broadcastInDim S8388608 ![] bcast_S_S8388608 (constantI S_ 32 262144#32))) a9))) (Host.gather gather_S262144_S8388608x1_S8388608_n_0_n_n_0_1_1 a2 (broadcastInDim S8388608x1 ![0] bcast_S8388608_S8388608x1_0 (select (cmpi .slt a10 (broadcastInDim S8388608 ![] bcast_S_S8388608 (constantI S_ 32 0#32))) (addi a10 (broadcastInDim S8388608 ![] bcast_S_S8388608 (constantI S_ 32 262144#32))) a10)))

/-- the second denominator: density gathered at bf (wrapped by 262144) plus boundary density gathered at bb (wrapped by 16384) -/
def denomBoundary (a2 : FVec Ideal S262144 .f32) (a6 : FVec Ideal S16384 .f32) (a11 a12 : IVec S524288 32) : FVec Ideal S524288 .f32 :=
  addf (Host.gather gather_S262144_S524288x1_S524288_n_0_n_n_0_1_1 a2 (broadcastInDim S524288x1 ![0] bcast_S524288_S524288x1_0 (select (cmpi .slt a12 (broadcastInDim S524288 ![] bcast_S_S524288 (constantI S_ 32 0#32))) (addi a12 (broadcastInDim S524288 ![] bcast_S_S524288 (constantI S_ 32 262144#32))) a12))) (Host.gather gather_S16384_S524288x1_S524288_n_0_n_n_0_1_1 a6 (broadcastInDim S524288x1 ![0] bcast_S524288_S524288x1_0 (select (cmpi .slt a11 (broadcastInDim S524288 ![] bcast_S_S524288 (constantI S_ 32 0#32))) (addi a11 (broadcastInDim S524288 ![] bcast_S_S524288 (constantI S_ 32 16384#32))) a11)))

/-- the precondition read back: the nine float arrays hold reals, and neither denominator has a zero entry -/
theorem of_pre (a0 : FVec Ideal S262144x2 .f32) (a1 a2 : FVec Ideal S262144 .f32) (a3 : FVec Ideal S8388608 .f32) (a4 : FVec Ideal S8388608x2 .f32) (a5 a6 : FVec Ideal S16384 .f32) (a7 : FVec Ideal S524288 .f32) (a8 : FVec Ideal S524288x2 .f32) (a9 a10 : IVec S8388608 32) (a11 a12 : IVec S524288 32)
    (h : fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i))
    ∧ (∀ e, denomFluid a2 a9 a10 e ≠ 0) ∧ (∀ e, denomBoundary a2 a6 a11 a12 e ≠ 0) := by
  have e := congrFun h ValueIdx.ix0
  simp only [fn, fn_part1, fn_part2, fn_part3, fn_part4] at e
  simp only [andi, IntOp.andi_eq_one] at e
  obtain ⟨⟨⟨⟨⟨⟨⟨⟨⟨⟨h0, h1⟩, h2⟩, h3⟩, h4⟩, h5⟩, h6⟩, h7⟩, h8⟩, h9⟩, h10⟩ := e
  exact ⟨all_real a0 _ _ _ h0, all_real a1 _ _ _ h1, all_real a2 _ _ _ h2, all_real a3 _ _ _ h3, all_real a4 _ _ _ h4,
    all_real a5 _ _ _ h5, all_real a6 _ _ _ h6, all_real a7 _ _ _ h7, all_real a8 _ _ _ h8,
    all_ne_zero (denomFluid a2 a9 a10) _ _ _ h9, all_ne_zero (denomBoundary a2 a6 a11 a12) _ _ _ h10⟩

end Pre

/-- a finite sum of squares of reals is a real that is not negative -/
theorem sum_sq_real {ι : Type} (S : Finset ι) (x : ι → EReal) (hx : ∀ i, IsReal (x i)) :
    ∃ q : ℝ, 0 ≤ q ∧ ∑ i ∈ S, x i * x i = (q : EReal) := by
  refine Finset.sum_induction (fun i => x i * x i) (fun y => ∃ q : ℝ, 0 ≤ q ∧ y = (q : EReal)) ?_ ⟨0, le_refl _, rfl⟩ ?_
  · rintro _ _ ⟨p, hp, rfl⟩ ⟨q, hq, rfl⟩
    exact ⟨p + q, add_nonneg hp hq, (EReal.coe_add p q).symm⟩
  · intro i _
    obtain ⟨r, hr⟩ := hx i
    exact ⟨r * r, mul_self_nonneg r, by rw [hr, EReal.coe_mul]⟩

/-- the host's sum, from zero, of the squares of the reals that reduce to one index is a real that is not negative -/
theorem hostReduceAdd_sq_real {s t : Shape} {axes : List (Fin s.rank)} (h : s.ReducesTo axes t) (x : FVec Ideal s .f32)
    (hx : ∀ i, IsReal (x i)) (j : t.Idx) : ∃ q : ℝ, 0 ≤ q ∧ Ideal.hostReduceAdd h (mulf x x) 0 j = (q : EReal) := by
  unfold Ideal.hostReduceAdd
  rw [zero_add]
  exact sum_sq_real _ x hx

/-- the square root of a real that is not negative is a real -/
theorem sqrt_real {q : ℝ} (hq : 0 ≤ q) : IsReal (Ideal.sqrt (q : EReal)) := by
  rw [Ideal.sqrt_coe, if_neg (not_lt.mpr hq)]
  exact ⟨_, rfl⟩

/-- the maximum, folded from ⊥, of a nonempty family of reals is a real: it is at least one member, so above ⊥, and
    a maximum of values below ⊤ starting from ⊥ is below ⊤ -/
theorem fold_max_real {ι : Type} (S : Finset ι) (hS : S.Nonempty) (g : ι → EReal) (hg : ∀ i, IsReal (g i)) :
    IsReal (S.fold max ⊥ g) := by
  refine isReal_of_ne (ne_of_gt ?_) (ne_of_lt ?_)
  · obtain ⟨i, hi⟩ := hS
    obtain ⟨r, hr⟩ := hg i
    exact (Finset.lt_fold_max _).mpr (Or.inr ⟨i, hi, by rw [hr]; exact EReal.bot_lt_coe r⟩)
  · refine (Finset.fold_max_lt _).mpr ⟨bot_lt_top, fun i _ => ?_⟩
    obtain ⟨r, hr⟩ := hg i
    rw [hr]; exact EReal.coe_lt_top r

/-- the common scale — the maximum over the rows, from −∞, of the square root of each row's sum of squares from zero —
    is a real when the array holds reals -/
theorem scale_real (h1 : S262144x2.ReducesTo [1] S262144) (h2 : S262144.ReducesTo [0] S_) (hpos : 0 < S_.numel)
    (a0 : FVec Ideal S262144x2 .f32) (ha : ∀ i, IsReal (a0 i)) :
    IsReal (Host.reduce (FloatOps.maximumf (F := Ideal) (φ := .f32))
      (Host.sqrt (Host.reduceAdd (mulf a0 a0) (constant (F := Ideal) S_ .f32 0x00000000#32) h1 hpos))
      (constant (F := Ideal) S_ .f32 0xFF800000#32) h2 hpos ValueIdx.ix0) := by
  rw [Host.reduce_eq_fold]
  have hrow : ∀ j : S262144.Idx, IsReal (Host.sqrt (Host.reduceAdd (mulf a0 a0) (constant (F := Ideal) S_ .f32 0x00000000#32) h1 hpos) j) := by
    intro j
    obtain ⟨q, hq, hs⟩ := hostReduceAdd_sq_real h1 a0 ha j
    have c0 : constant (F := Ideal) S_ .f32 0x00000000#32 (Shape.Idx.first hpos) = 0 := Ideal.ofBits_zero_f32
    simp only [Host.sqrt]
    rw [Ideal.hostUnary_sqrt_def, ValueIdx.hostReduceAdd_apply, c0, hs]
    exact sqrt_real hq
  have hne : (Finset.univ.filter fun i : S262144.Idx => h2.drop i = ValueIdx.ix0).Nonempty :=
    ⟨ValueIdx.ix1 ⟨0, by omega⟩, Finset.mem_filter.mpr ⟨Finset.mem_univ _, Subsingleton.elim _ _⟩⟩
  have := fold_max_real _ hne _ hrow
  rw [← ofBits_neg_inf] at this
  exact this

end Cert.PreFacts
end
-- ==== Proof.RefStages.lean ====
/-
  The reference's per-edge terms read at an index, at the ideal values. Each of the two update arrays the reference
  scatters is, at edge e and component k, the message of Proof/Msg.lean at that edge's distance, direction component,
  the two gathered densities and the gathered area or volume: the same tree of operations, so after the chain of
  elementwise operations and broadcasts is read at the index, both sides are one term.
-/
import proofs.«159046_j47021301957201_2_alg».proof.Proof.Gen.ReferenceIdeal.Read
import proofs.«159046_j47021301957201_2_alg».proof.Proof.Msg
import Idealize.ShloMosaic.Lib.ValueIdx

noncomputable section

namespace Cert.RefStages

open Cert.ReferenceIdeal Cert.ReferenceIdeal.Gen Cert.ReferenceIdeal.Read Idealize.ShloMosaic Idealize.ShloMosaic.ValueIdx Cert.Msg

/-! ## The scalar normaliser: the weight at the packing distance -/

/-- the clipped packing distance -/
theorem clip0_apply (i : S_.Idx) : val_main_v3 (F := Ideal) i = clip (Ideal.ofBits .f32 0x3F000000#32) := rfl

/-- the weight at the packing distance -/
theorem wend0_apply (i : S_.Idx) : val_main_v10 (F := Ideal) i = wend (Ideal.ofBits .f32 0x3F000000#32) := rfl

/-! ## The fluid edges -/

/-- the clipped distance of a fluid edge (the weight's copy) -/
theorem clipA_apply (x3 : (⟨S8388608, .f32⟩ : BufTy).Contents (Elt Ideal)) (i : S8388608.Idx) :
    val_main_v11 (F := Ideal) x3 i = clip (x3 i) := rfl

/-- the clipped distance of a fluid edge (the derivative's copy) -/
theorem clipA'_apply (x3 : (⟨S8388608, .f32⟩ : BufTy).Contents (Elt Ideal)) (i : S8388608.Idx) :
    val_main_v31 (F := Ideal) x3 i = clip (x3 i) := rfl

/-- the weight of a fluid edge -/
theorem wendA_apply (x3 : (⟨S8388608, .f32⟩ : BufTy).Contents (Elt Ideal)) (i : S8388608.Idx) :
    val_main_v22 (F := Ideal) x3 i = wend (x3 i) := rfl

/-- the normalised weight of a fluid edge -/
theorem wkA_apply (x3 : (⟨S8388608, .f32⟩ : BufTy).Contents (Elt Ideal)) (i : S8388608.Idx) :
    val_main_v24 (F := Ideal) x3 i = Ideal.div (wend (x3 i)) (wend (Ideal.ofBits .f32 0x3F000000#32)) := rfl

/-- 1 + R · wk⁴ on a fluid edge -/
theorem ktermA_apply (x3 : (⟨S8388608, .f32⟩ : BufTy).Contents (Elt Ideal)) (i : S8388608.Idx) :
    val_main_v30 (F := Ideal) x3 i = kterm (Ideal.div (wend (x3 i)) (wend (Ideal.ofBits .f32 0x3F000000#32))) := rfl

/-- the radial derivative on a fluid edge, times the direction component -/
theorem gradA_apply (x3 : (⟨S8388608, .f32⟩ : BufTy).Contents (Elt Ideal)) (x4 : (⟨S8388608x2, .f32⟩ : BufTy).Contents (Elt Ideal)) (e : Fin 8388608) (k : Fin 2) :
    val_main_v43 (F := Ideal) x3 x4 (ix2 e k) = grad (x3 (ix1 e)) (x4 (ix2 e k)) := by
  have hj : idx_main_v41 (idx_main_v42 (ix2 e k)) = ix1 e := by funext a; match a with | ⟨0, _⟩ => rfl
  rw [val_main_v43_apply, val_main_v42_apply, val_main_v41_apply, hj]
  rfl

/-- the update the first scatter adds at edge e, component k, is the edge's message -/
theorem termA_apply (x1 x2 : (⟨S262144, .f32⟩ : BufTy).Contents (Elt Ideal)) (x3 : (⟨S8388608, .f32⟩ : BufTy).Contents (Elt Ideal)) (x4 : (⟨S8388608x2, .f32⟩ : BufTy).Contents (Elt Ideal)) (x9 x10 : (⟨S8388608, .i32⟩ : BufTy).Contents (Elt Ideal))
    (e : Fin 8388608) (k : Fin 2) :
    val_main_v70 (F := Ideal) x1 x2 x3 x4 x9 x10 (ix2 e k)
      = msg (Ideal.div (wend (x3 (ix1 e))) (wend (Ideal.ofBits .f32 0x3F000000#32))) (x3 (ix1 e)) (x4 (ix2 e k))
          (val_main_v57 (F := Ideal) x2 x9 (ix1 e)) (val_main_v64 (F := Ideal) x2 x10 (ix1 e)) (val_main_v50 (F := Ideal) x1 x10 (ix1 e)) := by
  have hi : idx_main_v68 (idx_main_v69 (ix2 e k)) = ix1 e := by funext a; match a with | ⟨0, _⟩ => rfl
  rw [val_main_v70_apply, val_main_v69_apply, val_main_v68_apply, hi, gradA_apply, val_main_v67_apply, val_main_v66_apply,
    val_main_v65_apply, ktermA_apply]
  rfl

/-! ## The boundary edges -/

/-- the clipped distance of a boundary edge (the weight's copy) -/
theorem clipB_apply (x7 : (⟨S524288, .f32⟩ : BufTy).Contents (Elt Ideal)) (i : S524288.Idx) :
    val_main_v78 (F := Ideal) x7 i = clip (x7 i) := rfl

/-- the clipped distance of a boundary edge (the derivative's copy) -/
theorem clipB'_apply (x7 : (⟨S524288, .f32⟩ : BufTy).Contents (Elt Ideal)) (i : S524288.Idx) :
    val_main_v99 (F := Ideal) x7 i = clip (x7 i) := rfl

/-- the weight of a boundary edge -/
theorem wendB_apply (x7 : (⟨S524288, .f32⟩ : BufTy).Contents (Elt Ideal)) (i : S524288.Idx) :
    val_main_v89 (F := Ideal) x7 i = wend (x7 i) := rfl

/-- the normalised weight of a boundary edge -/
theorem wkB_apply (x7 : (⟨S524288, .f32⟩ : BufTy).Contents (Elt Ideal)) (i : S524288.Idx) :
    val_main_v91 (F := Ideal) x7 i = Ideal.div (wend (x7 i)) (wend (Ideal.ofBits .f32 0x3F000000#32)) := rfl

/-- 1 + R · wk⁴ on a boundary edge -/
theorem ktermB_apply (x7 : (⟨S524288, .f32⟩ : BufTy).Contents (Elt Ideal)) (i : S524288.Idx) :
    val_main_v97 (F := Ideal) x7 i = kterm (Ideal.div (wend (x7 i)) (wend (Ideal.ofBits .f32 0x3F000000#32))) := rfl

/-- the radial derivative on a boundary edge, times the negated direction component -/
theorem gradB_apply (x7 : (⟨S524288, .f32⟩ : BufTy).Contents (Elt Ideal)) (x8 : (⟨S524288x2, .f32⟩ : BufTy).Contents (Elt Ideal)) (e : Fin 524288) (k : Fin 2) :
    val_main_v111 (F := Ideal) x7 x8 (ix2 e k) = grad (x7 (ix1 e)) (-(x8 (ix2 e k))) := by
  have hj : idx_main_v109 (idx_main_v110 (ix2 e k)) = ix1 e := by funext a; match a with | ⟨0, _⟩ => rfl
  rw [val_main_v111_apply, val_main_v110_apply, val_main_v109_apply, hj]
  rfl

/-- the update the second scatter adds at edge e, component k, is the edge's message: density gathered at the fluid
    particle and at the boundary particle, the boundary particle's volume, the direction negated -/
theorem termB_apply (x2 : (⟨S262144, .f32⟩ : BufTy).Contents (Elt Ideal)) (x5 x6 : (⟨S16384, .f32⟩ : BufTy).Contents (Elt Ideal)) (x7 : (⟨S524288, .f32⟩ : BufTy).Contents (Elt Ideal)) (x8 : (⟨S524288x2, .f32⟩ : BufTy).Contents (Elt Ideal)) (x11 x12 : (⟨S524288, .i32⟩ : BufTy).Contents (Elt Ideal))
    (e : Fin 524288) (k : Fin 2) :
    val_main_v138 (F := Ideal) x2 x5 x6 x7 x8 x11 x12 (ix2 e k)
      = msg (Ideal.div (wend (x7 (ix1 e))) (wend (Ideal.ofBits .f32 0x3F000000#32))) (x7 (ix1 e)) (-(x8 (ix2 e k)))
          (val_main_v125 (F := Ideal) x2 x12 (ix1 e)) (val_main_v132 (F := Ideal) x6 x11 (ix1 e)) (val_main_v118 (F := Ideal) x5 x11 (ix1 e)) := by
  have hi : idx_main_v136 (idx_main_v137 (ix2 e k)) = ix1 e := by funext a; match a with | ⟨0, _⟩ => rfl
  rw [val_main_v138_apply, val_main_v137_apply, val_main_v136_apply, hi, gradB_apply, val_main_v135_apply, val_main_v134_apply,
    val_main_v133_apply, ktermB_apply]
  rfl

/-! ## The scale and the result -/

/-- the reference's result: each half's segment sum times the scale, added -/
theorem final_form (x0 : (⟨S262144x2, .f32⟩ : BufTy).Contents (Elt Ideal)) (x1 x2 : (⟨S262144, .f32⟩ : BufTy).Contents (Elt Ideal)) (x3 : (⟨S8388608, .f32⟩ : BufTy).Contents (Elt Ideal)) (x4 : (⟨S8388608x2, .f32⟩ : BufTy).Contents (Elt Ideal)) (x5 x6 : (⟨S16384, .f32⟩ : BufTy).Contents (Elt Ideal))
    (x7 : (⟨S524288, .f32⟩ : BufTy).Contents (Elt Ideal)) (x8 : (⟨S524288x2, .f32⟩ : BufTy).Contents (Elt Ideal)) (x9 x10 : (⟨S8388608, .i32⟩ : BufTy).Contents (Elt Ideal)) (x11 x12 : (⟨S524288, .i32⟩ : BufTy).Contents (Elt Ideal)) :
    val_main_v146 (F := Ideal) x0 x1 x2 x3 x4 x5 x6 x7 x8 x9 x10 x11 x12
      = addf (mulf (broadcastInDim S262144x2 ![] bcast_S_S262144x2 (val_main_v72 (F := Ideal) x0))
            (Host.scatterAdd scatter_S262144x2_S8388608x1_S8388608x2_1_0_0_1
              (broadcastInDim S262144x2 ![] bcast_S_S262144x2 (constant (F := Ideal) S_ .f32 0x00000000#32))
              (broadcastInDim S8388608x1 ![0] bcast_S8388608_S8388608x1_0 x9) (val_main_v70 (F := Ideal) x1 x2 x3 x4 x9 x10)))
          (mulf (broadcastInDim S262144x2 ![] bcast_S_S262144x2 (val_main_v140 (F := Ideal) x0))
            (Host.scatterAdd scatter_S262144x2_S524288x1_S524288x2_1_0_0_1
              (broadcastInDim S262144x2 ![] bcast_S_S262144x2 (constant (F := Ideal) S_ .f32 0x00000000#32))
              (broadcastInDim S524288x1 ![0] bcast_S524288_S524288x1_0 x12) (val_main_v138 (F := Ideal) x2 x5 x6 x7 x8 x11 x12))) := rfl

/-- the two halves' scales are one term -/
theorem scale_eq (x0 : (⟨S262144x2, .f32⟩ : BufTy).Contents (Elt Ideal)) : val_main_v72 (F := Ideal) x0 = val_main_v140 (F := Ideal) x0 := rfl

/-- the scale: (−1.5 · (max over rows of the row norms / c0)) · 0.01 -/
theorem scale_form (x0 : (⟨S262144x2, .f32⟩ : BufTy).Contents (Elt Ideal)) :
    val_main_v140 (F := Ideal) x0
      = mulf (mulf (constant (F := Ideal) S_ .f32 0xBFC00000#32)
          (Host.divf (Host.reduce (FloatOps.maximumf (F := Ideal) (φ := .f32))
            (Host.sqrt (Host.reduceAdd (mulf x0 x0) (constant (F := Ideal) S_ .f32 0x00000000#32) reducesTo_S262144x2_S262144_d1 h_S_))
            (constant (F := Ideal) S_ .f32 0xFF800000#32) reducesTo_S262144_S_d0 h_S_) (constant (F := Ideal) S_ .f32 0x41C216B1#32)))
        (constant (F := Ideal) S_ .f32 0x3C23D70A#32) := rfl

end Cert.RefStages

end
-- ==== Proof.RealFacts.lean ====
/-
  Real numbers through the host operations the two programs share: a scatter that adds reals into reals, a gather of
  reals, the splat of zero, and the splat of the common scale ((−3/2) · (M / c0)) · c2, where M, the largest row norm, is
  a real when the array is.
-/
import proofs.«159046_j47021301957201_2_alg».proof.Proof.Msg
import proofs.«159046_j47021301957201_2_alg».proof.Proof.PreFacts
import Idealize.ShloMosaic.PureOps.Ideal
import Idealize.ShloMosaic.PureOps.Ideal.Laws
import Idealize.ShloMosaic.Lib.ValueIdx
import Idealize.ShloMosaic.Lib.IdealHost

noncomputable section

namespace Cert.RealFacts

open Idealize.ShloMosaic Idealize.ShloMosaic.ValueIdx Cert.Pre_finite_inputs

/-- a scatter that adds: each element is the operand's plus a finite sum of updates, a real when all of them are -/
theorem scatterAdd_real {s si su : Shape} (d : ScatterDims s si su) {w : Nat} (x : FVec Ideal s .f32) (idx : IVec si w)
    (upd : FVec Ideal su .f32) (hx : ∀ i, Cert.Msg.IsReal (x i)) (hu : ∀ j, Cert.Msg.IsReal (upd j)) (n : s.Idx) :
    Cert.Msg.IsReal (Host.scatterAdd d x idx upd n) := by
  unfold Host.scatterAdd
  rw [Ideal.hostScatterAdd_def]
  unfold Ideal.hostScatterAdd
  exact Cert.Msg.IsReal.add (hx n) (Cert.Msg.IsReal.sum _ _ hu)

/-- a gather reads one element of its operand -/
theorem gather_real {s si t : Shape} (d : GatherDims s si t) {w : Nat} (x : s.Idx → EReal) (idx : IVec si w)
    (hx : ∀ i, Cert.Msg.IsReal (x i)) (j : t.Idx) : Cert.Msg.IsReal (Host.gather d x idx j) := hx _

/-- the splat of zero is real everywhere -/
theorem splat_zero_real {s : Shape} (hb : S_.BroadcastsInDim s (![] : Fin 0 → Fin s.rank)) (i : s.Idx) :
    Cert.Msg.IsReal (broadcastInDim s ![] hb (constant (F := Ideal) S_ .f32 0x00000000#32) i) := by
  rw [broadcastInDim_scalar_apply]
  exact Cert.Msg.real_zero

/-- the splat of the common scale is real everywhere when the array holds reals -/
theorem scale_splat_real (h1 : S262144x2.ReducesTo [1] S262144) (h2 : S262144.ReducesTo [0] S_) (hpos : 0 < S_.numel)
    (hb : S_.BroadcastsInDim S262144x2 (![] : Fin 0 → Fin S262144x2.rank)) (a0 : FVec Ideal S262144x2 .f32)
    (ha : ∀ i, Cert.Msg.IsReal (a0 i)) (n : S262144x2.Idx) :
    Cert.Msg.IsReal (broadcastInDim S262144x2 ![] hb
      (mulf (mulf (constant (F := Ideal) S_ .f32 0xBFC00000#32)
          (Host.divf (Host.reduce (FloatOps.maximumf (F := Ideal) (φ := .f32))
            (Host.sqrt (Host.reduceAdd (mulf a0 a0) (constant (F := Ideal) S_ .f32 0x00000000#32) h1 hpos))
            (constant (F := Ideal) S_ .f32 0xFF800000#32) h2 hpos) (constant (F := Ideal) S_ .f32 0x41C216B1#32)))
        (constant (F := Ideal) S_ .f32 0x3C23D70A#32)) n) := by
  rw [broadcastInDim_scalar_apply]
  have hM : Cert.Msg.IsReal (Host.reduce (FloatOps.maximumf (F := Ideal) (φ := .f32))
      (Host.sqrt (Host.reduceAdd (mulf a0 a0) (constant (F := Ideal) S_ .f32 0x00000000#32) h1 hpos))
      (constant (F := Ideal) S_ .f32 0xFF800000#32) h2 hpos ix0) :=
    Cert.PreFacts.scale_real h1 h2 hpos a0 ha
  have hc0 : Ideal.ofBits .f32 0x41C216B1#32 ≠ 0 := by
    rw [Cert.Msg.lit_c0]
    exact_mod_cast (by norm_num : (12719793 / 524288 : ℝ) ≠ 0)
  exact Cert.Msg.IsReal.mul
    (Cert.Msg.IsReal.mul ⟨_, Cert.Msg.lit_m32⟩ (Cert.Msg.IsReal.div hM ⟨_, Cert.Msg.lit_c0⟩ hc0))
    ⟨_, Cert.Msg.lit_supp⟩

end Cert.RealFacts

end
-- ==== Proof.Bridge.lean ====
/-
  The two programs' results are one array. Index by index, the update each program adds into a particle's
  segment sum is the same message: the reference divides the Wendland weight by k0, the kernel multiplies it by
  the exact reciprocal of k0, and dividing by a nonzero real is multiplying by its reciprocal; the kernel's two
  transposes cancel against the reference's [E, 2] layout. So the two segment sums A, B are the same arrays in
  both programs, and the results are s·A + s·B and s·(A + B) for the same scale s. These agree when s, A, B are
  real numbers: s is, because the velocities are; A and B are, because every message is — its inputs are real and
  its denominator, the sum of the two gathered densities, is not zero.
-/
import proofs.«159046_j47021301957201_2_alg».proof.Proof.KernelRun
import proofs.«159046_j47021301957201_2_alg».proof.Proof.RefStages
import proofs.«159046_j47021301957201_2_alg».proof.Proof.RealFacts
import Idealize.ShloMosaic.Lib.ValueLayout

set_option maxRecDepth 16384

noncomputable section

namespace Cert.Bridge

open Idealize.ShloMosaic Idealize.ShloMosaic.ValueIdx
open Cert.KernelIdeal Cert.KernelIdeal.Gen Cert.Msg Cert.KernelRun

/-- The kernel program's result as one term of the thirteen argument arrays. -/
def finalK (a0 : FVec Ideal S262144x2 .f32) (a1 a2 : FVec Ideal S262144 .f32) (a3 : FVec Ideal S8388608 .f32)
    (a4 : FVec Ideal S8388608x2 .f32) (a5 a6 : FVec Ideal S16384 .f32) (a7 : FVec Ideal S524288 .f32)
    (a8 : FVec Ideal S524288x2 .f32) (a9 a10 : IVec S8388608 32) (a11 a12 : IVec S524288 32) : FVec Ideal S262144x2 .f32 :=
  mulf (scaleOf (mach a0))
    (addf (segE a9 (transpose S8388608x2 [1, 0] (KernelRegion0.G a3 (transpose S2x8388608 [1, 0] a4 transposes_S8388608x2_S2x8388608_1_0) (gatE a2 a9) (gatE a2 a10) (gatE a1 a10)) transposes_S2x8388608_S8388608x2_1_0))
      (segB a12 (transpose S524288x2 [1, 0] (KernelRegion1.G a7 (transpose S2x524288 [1, 0] (Host.negf (F := Ideal) (s := S524288x2) (φ := .f32) a8) transposes_S524288x2_S2x524288_1_0) (gatF a2 a12) (gatB a6 a11) (gatB a5 a11)) transposes_S2x524288_S524288x2_1_0)))

theorem G0_apply (r : S8388608.Idx → EReal) (dT : S2x8388608.Idx → EReal) (da db mb : S8388608.Idx → EReal) (c : Fin 2) (e : Fin 8388608) :
    KernelRegion0.G r dT da db mb (ix2 c e)
      = msg (wend (r (ix1 e)) * ((131072 / 21903795 : ℝ) : EReal)) (r (ix1 e)) (dT (ix2 c e)) (da (ix1 e)) (db (ix1 e)) (mb (ix1 e)) := rfl
theorem G1_apply (r : S524288.Idx → EReal) (dT : S2x524288.Idx → EReal) (da db mb : S524288.Idx → EReal) (c : Fin 2) (e : Fin 524288) :
    KernelRegion1.G r dT da db mb (ix2 c e)
      = msg (wend (r (ix1 e)) * ((131072 / 21903795 : ℝ) : EReal)) (r (ix1 e)) (dT (ix2 c e)) (da (ix1 e)) (db (ix1 e)) (mb (ix1 e)) := rfl

/-! ## The two programs' spellings of the same host operations

The reference and the kernel program each print their own copy of the gathers' and the segment sums' dimension
numbers, of the shapes and of the side conditions; the copies are equal, so each gather, each segment sum and the
scale is one term in both. -/

theorem dims_gatE : Cert.ReferenceIdeal.gather_S262144_S8388608x1_S8388608_n_0_n_n_0_1_1 = Cert.KernelIdeal.gather_S262144_S8388608x1_S8388608_n_0_n_n_0_1_1 := rfl
theorem dims_gatF : Cert.ReferenceIdeal.gather_S262144_S524288x1_S524288_n_0_n_n_0_1_1 = Cert.KernelIdeal.gather_S262144_S524288x1_S524288_n_0_n_n_0_1_1 := rfl
theorem dims_gatB : Cert.ReferenceIdeal.gather_S16384_S524288x1_S524288_n_0_n_n_0_1_1 = Cert.KernelIdeal.gather_S16384_S524288x1_S524288_n_0_n_n_0_1_1 := rfl
theorem dims_segE : Cert.ReferenceIdeal.scatter_S262144x2_S8388608x1_S8388608x2_1_0_0_1 = Cert.KernelIdeal.scatter_S262144x2_S8388608x1_S8388608x2_1_0_0_1 := rfl
theorem dims_segB : Cert.ReferenceIdeal.scatter_S262144x2_S524288x1_S524288x2_1_0_0_1 = Cert.KernelIdeal.scatter_S262144x2_S524288x1_S524288x2_1_0_0_1 := rfl

theorem ref_v57 (a2 : FVec Ideal S262144 .f32) (a9 : IVec S8388608 32) : Cert.ReferenceIdeal.Read.val_main_v57 (F := Ideal) a2 a9 = gatE a2 a9 := by
  unfold Cert.ReferenceIdeal.Read.val_main_v57 gatE; rw [dims_gatE]; rfl
theorem ref_v64 (a2 : FVec Ideal S262144 .f32) (a10 : IVec S8388608 32) : Cert.ReferenceIdeal.Read.val_main_v64 (F := Ideal) a2 a10 = gatE a2 a10 := by
  unfold Cert.ReferenceIdeal.Read.val_main_v64 gatE; rw [dims_gatE]; rfl
theorem ref_v50 (a1 : FVec Ideal S262144 .f32) (a10 : IVec S8388608 32) : Cert.ReferenceIdeal.Read.val_main_v50 (F := Ideal) a1 a10 = gatE a1 a10 := by
  unfold Cert.ReferenceIdeal.Read.val_main_v50 gatE; rw [dims_gatE]; rfl
theorem ref_v125 (a2 : FVec Ideal S262144 .f32) (a12 : IVec S524288 32) : Cert.ReferenceIdeal.Read.val_main_v125 (F := Ideal) a2 a12 = gatF a2 a12 := by
  unfold Cert.ReferenceIdeal.Read.val_main_v125 gatF; rw [dims_gatF]; rfl
theorem ref_v132 (a6 : FVec Ideal S16384 .f32) (a11 : IVec S524288 32) : Cert.ReferenceIdeal.Read.val_main_v132 (F := Ideal) a6 a11 = gatB a6 a11 := by
  unfold Cert.ReferenceIdeal.Read.val_main_v132 gatB; rw [dims_gatB]; rfl
theorem ref_v118 (a5 : FVec Ideal S16384 .f32) (a11 : IVec S524288 32) : Cert.ReferenceIdeal.Read.val_main_v118 (F := Ideal) a5 a11 = gatB a5 a11 := by
  unfold Cert.ReferenceIdeal.Read.val_main_v118 gatB; rw [dims_gatB]; rfl

theorem ref_segE (a9 : IVec S8388608 32) (t : FVec Ideal S8388608x2 .f32) :
    Host.scatterAdd Cert.ReferenceIdeal.scatter_S262144x2_S8388608x1_S8388608x2_1_0_0_1
      (broadcastInDim Cert.ReferenceIdeal.S262144x2 ![] Cert.ReferenceIdeal.Gen.bcast_S_S262144x2 (constant (F := Ideal) Cert.ReferenceIdeal.S_ .f32 0x00000000#32))
      (broadcastInDim Cert.ReferenceIdeal.S8388608x1 ![0] Cert.ReferenceIdeal.Gen.bcast_S8388608_S8388608x1_0 a9) t = segE a9 t := by
  unfold segE; rw [dims_segE]
theorem ref_segB (a12 : IVec S524288 32) (t : FVec Ideal S524288x2 .f32) :
    Host.scatterAdd Cert.ReferenceIdeal.scatter_S262144x2_S524288x1_S524288x2_1_0_0_1
      (broadcastInDim Cert.ReferenceIdeal.S262144x2 ![] Cert.ReferenceIdeal.Gen.bcast_S_S262144x2 (constant (F := Ideal) Cert.ReferenceIdeal.S_ .f32 0x00000000#32))
      (broadcastInDim Cert.ReferenceIdeal.S524288x1 ![0] Cert.ReferenceIdeal.Gen.bcast_S524288_S524288x1_0 a12) t = segB a12 t := by
  unfold segB; rw [dims_segB]
theorem ref_scale (a0 : FVec Ideal S262144x2 .f32) :
    broadcastInDim Cert.ReferenceIdeal.S262144x2 ![] Cert.ReferenceIdeal.Gen.bcast_S_S262144x2
      (mulf (mulf (constant (F := Ideal) Cert.ReferenceIdeal.S_ .f32 0xBFC00000#32)
          (Host.divf (Host.reduce (FloatOps.maximumf (F := Ideal) (φ := .f32))
            (Host.sqrt (Host.reduceAdd (mulf a0 a0) (constant (F := Ideal) Cert.ReferenceIdeal.S_ .f32 0x00000000#32) Cert.ReferenceIdeal.Gen.reducesTo_S262144x2_S262144_d1 Cert.ReferenceIdeal.Gen.h_S_))
            (constant (F := Ideal) Cert.ReferenceIdeal.S_ .f32 0xFF800000#32) Cert.ReferenceIdeal.Gen.reducesTo_S262144_S_d0 Cert.ReferenceIdeal.Gen.h_S_) (constant (F := Ideal) Cert.ReferenceIdeal.S_ .f32 0x41C216B1#32)))
        (constant (F := Ideal) Cert.ReferenceIdeal.S_ .f32 0x3C23D70A#32)) = scaleOf (mach a0) := rfl

/-- The scale times each segment sum, added, is the scale times their sum, at an index where all three are real:
    stated over arbitrary arrays. -/
theorem scale_sum_apply {s : Shape} (S A B : FVec Ideal s .f32) (n : s.Idx) (hs : IsReal (S n)) (hA : IsReal (A n))
    (hB : IsReal (B n)) : addf (mulf S A) (mulf S B) n = mulf S (addf A B) n := by
  rw [addf_apply, mulf_apply, mulf_apply, mulf_apply, addf_apply]
  exact (scale_distrib hs hA hB).symm

section
variable (a0 : FVec Ideal S262144x2 .f32) (a1 a2 : FVec Ideal S262144 .f32) (a3 : FVec Ideal S8388608 .f32)
  (a4 : FVec Ideal S8388608x2 .f32) (a5 a6 : FVec Ideal S16384 .f32) (a7 : FVec Ideal S524288 .f32)
  (a8 : FVec Ideal S524288x2 .f32) (a9 a10 : IVec S8388608 32) (a11 a12 : IVec S524288 32)

/-- The fluid edges' updates, in the kernel's layout read back to [E, 2]. -/
abbrev updE : FVec Ideal S8388608x2 .f32 :=
  transpose S8388608x2 [1, 0] (KernelRegion0.G a3 (transpose S2x8388608 [1, 0] a4 transposes_S8388608x2_S2x8388608_1_0) (gatE a2 a9) (gatE a2 a10) (gatE a1 a10)) transposes_S2x8388608_S8388608x2_1_0
/-- The boundary edges' updates likewise. -/
abbrev updB : FVec Ideal S524288x2 .f32 :=
  transpose S524288x2 [1, 0] (KernelRegion1.G a7 (transpose S2x524288 [1, 0] (Host.negf (F := Ideal) (s := S524288x2) (φ := .f32) a8) transposes_S524288x2_S2x524288_1_0) (gatF a2 a12) (gatB a6 a11) (gatB a5 a11)) transposes_S2x524288_S524288x2_1_0

theorem updE_apply (e : Fin 8388608) (k : Fin 2) : updE a1 a2 a3 a4 a9 a10 (ix2 e k)
    = msg (wend (a3 (ix1 e)) * ((131072 / 21903795 : ℝ) : EReal)) (a3 (ix1 e)) (a4 (ix2 e k))
        (gatE a2 a9 (ix1 e)) (gatE a2 a10 (ix1 e)) (gatE a1 a10 (ix1 e)) := by
  unfold updE
  rw [transpose_ix2_apply, G0_apply, transpose_ix2_apply]
theorem updB_apply (e : Fin 524288) (k : Fin 2) : updB a2 a5 a6 a7 a8 a11 a12 (ix2 e k)
    = msg (wend (a7 (ix1 e)) * ((131072 / 21903795 : ℝ) : EReal)) (a7 (ix1 e)) (-(a8 (ix2 e k)))
        (gatF a2 a12 (ix1 e)) (gatB a6 a11 (ix1 e)) (gatB a5 a11 (ix1 e)) := by
  unfold updB
  rw [transpose_ix2_apply, G1_apply, transpose_ix2_apply]
  rfl

/-- The reference's fluid updates are the kernel's. -/
theorem refE_eq : Cert.ReferenceIdeal.Read.val_main_v70 (F := Ideal) a1 a2 a3 a4 a9 a10 = updE a1 a2 a3 a4 a9 a10 := by
  funext j
  obtain ⟨e, k, rfl⟩ : ∃ (e : Fin 8388608) (k : Fin 2), j = ix2 e k := ⟨j 0, j 1, eq_ix2 j⟩
  rw [Cert.RefStages.termA_apply, updE_apply, div_k0, ref_v57, ref_v64, ref_v50]
/-- The reference's boundary updates are the kernel's. -/
theorem refB_eq : Cert.ReferenceIdeal.Read.val_main_v138 (F := Ideal) a2 a5 a6 a7 a8 a11 a12 = updB a2 a5 a6 a7 a8 a11 a12 := by
  funext j
  obtain ⟨e, k, rfl⟩ : ∃ (e : Fin 524288) (k : Fin 2), j = ix2 e k := ⟨j 0, j 1, eq_ix2 j⟩
  rw [Cert.RefStages.termB_apply, updB_apply, div_k0, ref_v125, ref_v132, ref_v118]

variable (h0 : ∀ i, IsReal (a0 i)) (h1 : ∀ i, IsReal (a1 i)) (h2 : ∀ i, IsReal (a2 i)) (h3 : ∀ i, IsReal (a3 i))
  (h4 : ∀ i, IsReal (a4 i)) (h5 : ∀ i, IsReal (a5 i)) (h6 : ∀ i, IsReal (a6 i)) (h7 : ∀ i, IsReal (a7 i))
  (h8 : ∀ i, IsReal (a8 i))
  (hdE : ∀ e : Fin 8388608, gatE a2 a9 (ix1 e) + gatE a2 a10 (ix1 e) ≠ 0)
  (hdB : ∀ e : Fin 524288, gatF a2 a12 (ix1 e) + gatB a6 a11 (ix1 e) ≠ 0)

include h1 h2 h3 h4 hdE in
/-- Every fluid update is a real number. -/
theorem updE_real (j : S8388608x2.Idx) : IsReal (updE a1 a2 a3 a4 a9 a10 j) := by
  obtain ⟨e, k, rfl⟩ : ∃ (e : Fin 8388608) (k : Fin 2), j = ix2 e k := ⟨j 0, j 1, eq_ix2 j⟩
  rw [updE_apply]
  exact msg_real (IsReal.mul (wend_real (h3 _)) (IsReal.coe _)) (h3 _) (h4 _)
    (Cert.RealFacts.gather_real _ _ _ h2 _) (Cert.RealFacts.gather_real _ _ _ h2 _) (Cert.RealFacts.gather_real _ _ _ h1 _) (hdE e)

include h2 h5 h6 h7 h8 hdB in
/-- Every boundary update is a real number. -/
theorem updB_real (j : S524288x2.Idx) : IsReal (updB a2 a5 a6 a7 a8 a11 a12 j) := by
  obtain ⟨e, k, rfl⟩ : ∃ (e : Fin 524288) (k : Fin 2), j = ix2 e k := ⟨j 0, j 1, eq_ix2 j⟩
  rw [updB_apply]
  have hn : IsReal (-(a8 (ix2 e k))) := by
    obtain ⟨r, hr⟩ := h8 (ix2 e k); exact ⟨-r, by rw [hr]; rfl⟩
  exact msg_real (IsReal.mul (wend_real (h7 _)) (IsReal.coe _)) (h7 _) hn
    (Cert.RealFacts.gather_real _ _ _ h2 _) (Cert.RealFacts.gather_real _ _ _ h6 _) (Cert.RealFacts.gather_real _ _ _ h5 _) (hdB e)

include h0 h1 h2 h3 h4 h5 h6 h7 h8 hdE hdB in
/-- The reference's result is the kernel's. -/
theorem result_eq : Cert.ReferenceIdeal.Read.val_main_v146 (F := Ideal) a0 a1 a2 a3 a4 a5 a6 a7 a8 a9 a10 a11 a12
    = finalK a0 a1 a2 a3 a4 a5 a6 a7 a8 a9 a10 a11 a12 := by
  rw [Cert.RefStages.final_form, Cert.RefStages.scale_eq, Cert.RefStages.scale_form, refE_eq, refB_eq]
  refine (congrArg₂ addf (congrArg₂ mulf (ref_scale a0) (ref_segE a9 _)) (congrArg₂ mulf (ref_scale a0) (ref_segB a12 _))).trans ?_
  funext n
  unfold finalK
  have hs : IsReal (scaleOf (mach a0) n) := Cert.RealFacts.scale_splat_real _ _ _ _ a0 h0 n
  have hA : IsReal (segE a9 (updE a1 a2 a3 a4 a9 a10) n) :=
    Cert.RealFacts.scatterAdd_real _ _ _ _ (fun i => Cert.RealFacts.splat_zero_real _ i)
      (updE_real a1 a2 a3 a4 a9 a10 h1 h2 h3 h4 hdE) n
  have hB : IsReal (segB a12 (updB a2 a5 a6 a7 a8 a11 a12) n) :=
    Cert.RealFacts.scatterAdd_real _ _ _ _ (fun i => Cert.RealFacts.splat_zero_real _ i)
      (updB_real a2 a5 a6 a7 a8 a11 a12 h2 h5 h6 h7 h8 hdB) n
  exact scale_sum_apply _ _ _ n hs hA hB

end

end Cert.Bridge

end
-- ==== Proof.lean ====
/-
  Delta-SPH particle shifting: a kernel that computes the per-edge messages in two tiled launches (fluid–fluid and
  boundary–fluid edges), around plain gathers and segment sums, against the reference that computes the same
  messages with array operations. Over the extended reals the two programs return the same array, under the
  precondition that the float inputs are finite and that the two density sums the reference divides by are not
  zero, and with the kernel's normalising constant read as the exact reciprocal of the reference's k0.

  The three frames are the generated ones (the reference's is its generated run with the result dropped). The two
  ledger entries are the named constant's statement, once per launch. For the value claim: the kernel's run is
  read back through its segments to one term of the arguments (each launch's output array is the array of
  messages of its inputs), the reference's run is its generated composed term, and the two terms are equal index
  by index — the same message per edge, hence the same segment sums, and the scale distributes over their sum
  because all three are real numbers.
-/
import proofs.«159046_j47021301957201_2_alg».proof.Defs
import proofs.«159046_j47021301957201_2_alg».proof.Proof.Gen.Kernel
import proofs.«159046_j47021301957201_2_alg».proof.Proof.Gen.Kernel.Skeleton
import proofs.«159046_j47021301957201_2_alg».proof.Proof.Gen.Kernel.Launch
import proofs.«159046_j47021301957201_2_alg».proof.Proof.Gen.Kernel.Points
import proofs.«159046_j47021301957201_2_alg».proof.Proof.Gen.Kernel.Frame
import proofs.«159046_j47021301957201_2_alg».proof.Proof.Gen.KernelIdeal
import proofs.«159046_j47021301957201_2_alg».proof.Proof.Gen.KernelIdeal.Skeleton
import proofs.«159046_j47021301957201_2_alg».proof.Proof.Gen.KernelIdeal.Launch
import proofs.«159046_j47021301957201_2_alg».proof.Proof.Gen.KernelIdeal.Points
import proofs.«159046_j47021301957201_2_alg».proof.Proof.Gen.KernelIdeal.Frame
import proofs.«159046_j47021301957201_2_alg».proof.Proof.Gen.ReferenceIdeal
import proofs.«159046_j47021301957201_2_alg».proof.Proof.Gen.ReferenceIdeal.Run
import proofs.«159046_j47021301957201_2_alg».proof.Proof.Gen.ReferenceIdeal.Read
import proofs.«159046_j47021301957201_2_alg».proof.Proof.Gen.Pre_finite_inputs
import proofs.«159046_j47021301957201_2_alg».proof.Proof.KernelFrameResult
import proofs.«159046_j47021301957201_2_alg».proof.Proof.KernelRun
import proofs.«159046_j47021301957201_2_alg».proof.Proof.PreFacts
import proofs.«159046_j47021301957201_2_alg».proof.Proof.Bridge
import Idealize.ShloMosaic.Adequacy
import Idealize.ShloMosaic.Init

set_option maxRecDepth 16384

noncomputable section

namespace Cert.Proof

open Idealize.ShloMosaic Idealize.ShloMosaic.ValueIdx Idealize.SL.Sem

/-! ## The precondition's denominators are the programs' -/

theorem pre_dims_gatE : Cert.Pre_finite_inputs.gather_S262144_S8388608x1_S8388608_n_0_n_n_0_1_1 = Cert.KernelIdeal.gather_S262144_S8388608x1_S8388608_n_0_n_n_0_1_1 := rfl
theorem pre_dims_gatF : Cert.Pre_finite_inputs.gather_S262144_S524288x1_S524288_n_0_n_n_0_1_1 = Cert.KernelIdeal.gather_S262144_S524288x1_S524288_n_0_n_n_0_1_1 := rfl
theorem pre_dims_gatB : Cert.Pre_finite_inputs.gather_S16384_S524288x1_S524288_n_0_n_n_0_1_1 = Cert.KernelIdeal.gather_S16384_S524288x1_S524288_n_0_n_n_0_1_1 := rfl

/-- The sum of densities the precondition keeps off zero over the fluid edges is the sum the programs divide by. -/
theorem pre_denomE (a2 : FVec Ideal Cert.KernelIdeal.S262144 .f32) (a9 a10 : IVec Cert.KernelIdeal.S8388608 32) :
    Cert.PreFacts.denomFluid a2 a9 a10 = addf (Cert.KernelRun.gatE a2 a9) (Cert.KernelRun.gatE a2 a10) := by
  unfold Cert.PreFacts.denomFluid Cert.KernelRun.gatE
  rw [pre_dims_gatE]
  rfl
/-- The same over the boundary edges. -/
theorem pre_denomB (a2 : FVec Ideal Cert.KernelIdeal.S262144 .f32) (a6 : FVec Ideal Cert.KernelIdeal.S16384 .f32) (a11 a12 : IVec Cert.KernelIdeal.S524288 32) :
    Cert.PreFacts.denomBoundary a2 a6 a11 a12 = addf (Cert.KernelRun.gatF a2 a12) (Cert.KernelRun.gatB a6 a11) := by
  unfold Cert.PreFacts.denomBoundary Cert.KernelRun.gatF Cert.KernelRun.gatB
  rw [pre_dims_gatF, pre_dims_gatB]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's two entries, one per launch: the table gives the normalising constant the value 131072/21903795,
    and the printed constant is that value at the extended reals. -/
theorem preserves : Cert.preserves_Kernel_KernelIdeal :=
  ⟨IdealRules.named_const.statement Cert.KernelIdeal.κ "inv_k0" .f32 0x3BC41550#32 ((131072 / 21903795 : ℝ) : EReal) rfl,
   IdealRules.named_const.statement Cert.KernelIdeal.κ "inv_k0" .f32 0x3BC41550#32 ((131072 / 21903795 : ℝ) : EReal) rfl⟩

/-- Both programs end with the same array: the kernel's result read back through its run, and the reference's
    composed term, of arguments that agree. -/
theorem algebraic : Cert.algebraic_KernelIdeal_ReferenceIdeal := by
  intro m ρ m' ρ' hpre hagree
  refine ⟨fun c => Cert.Bridge.finalK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelRun.result_eq m ρ c), (h c).2⟩)
      (Cert.KernelIdeal.GenP.frame_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v146_eq]
    obtain ⟨e0, e1, e2, e3, e4, e5, e6, e7, e8, e9, e10, e11, e12⟩ := hagree c
    rw [e0, e1, e2, e3, e4, e5, e6, e7, e8, e9, e10, e11, e12]
    obtain ⟨r0, r1, r2, r3, r4, r5, r6, r7, r8, dE, dB⟩ := Cert.PreFacts.of_pre _ _ _ _ _ _ _ _ _ _ _ _ _ (hpre c)
    refine Cert.Bridge.result_eq _ _ _ _ _ _ _ _ _ _ _ _ _ r0 r1 r2 r3 r4 r5 r6 r7 r8 (fun e => ?_) (fun e => ?_)
    · have h := dE (ix1 e); rw [pre_denomE] at h; exact h
    · have h := dB (ix1 e); rw [pre_denomB] at h; exact h

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
